-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128 : Shape := ⟨3, ![8, 512, 128]⟩
abbrev S_ : Shape := ⟨0, ![]⟩

class Facts : Prop where
  bcast_S_S8x512x128 : S_.BroadcastsInDim S8x512x128 (![] : Fin 0 → Fin S8x512x128.rank)
  reducesTo_S8x512x128_S_d0_1_2 : S8x512x128.ReducesTo [0, 1, 2] S_
  h_S_ : 0 < S_.numel

variable [Facts]

def fn {F : FTy → Type} [FloatOps F] (main_arg0 : FVec F S8x512x128 .f32) : IVec S_ 1 :=
  let main_v0 : FVec F S8x512x128 .f32 := Host.absf main_arg0
  let main_cst : FVec F S_ .f32 := constant S_ .f32 0x7F800000#32
  let main_v1 : FVec F S8x512x128 .f32 := broadcastInDim S8x512x128 ![] bcast_S_S8x512x128 main_cst
  let main_v2 : IVec S8x512x128 1 := cmpf .olt main_v0 main_v1
  let main_c : IVec S_ 1 := constantI S_ 1 1#1
  let main_v3 : IVec S_ 1 := (fun x v => Host.reduce IntOp.andi x v reducesTo_S8x512x128_S_d0_1_2 h_S_) main_v2 main_c
  main_v3
-- ==== Kernel.lean ====
abbrev S8x512x128 : Shape := ⟨3, ![8, 512, 128]⟩
abbrev S_ : Shape := ⟨0, ![]⟩
abbrev S512x512 : Shape := ⟨2, ![512, 512]⟩
abbrev S262144 : Shape := ⟨1, ![262144]⟩
abbrev S130816 : Shape := ⟨1, ![130816]⟩
abbrev S262144x1 : Shape := ⟨2, ![262144, 1]⟩
abbrev S130816x1 : Shape := ⟨2, ![130816, 1]⟩
abbrev S130816x2 : Shape := ⟨2, ![130816, 2]⟩
abbrev S8x512x512 : Shape := ⟨3, ![8, 512, 512]⟩
abbrev S1x512x128 : Shape := ⟨3, ![1, 512, 128]⟩
abbrev S1x512x512 : Shape := ⟨3, ![1, 512, 512]⟩
abbrev S512x128 : Shape := ⟨2, ![512, 128]⟩
abbrev S8x130816 : Shape := ⟨2, ![8, 130816]⟩

abbrev nBuf : Space → Nat
  | .hbm => 140
  | .vmem => 4
  | .smem => 0
  | _ => 0

abbrev hbmTy0_0 (i : Nat) : BufTy := match i % 128 with
  | 0 => ⟨S8x512x128, .f32⟩
  | 1 => ⟨S_, .f32⟩
  | 2 => ⟨S512x512, .f32⟩
  | 3 => ⟨S512x512, .i32⟩
  | 4 => ⟨S_, .i32⟩
  | 5 => ⟨S512x512, .i32⟩
  | 6 => ⟨S512x512, .i32⟩
  | 7 => ⟨S512x512, .i32⟩
  | 8 => ⟨S512x512, .i1⟩
  | 9 => ⟨S_, .f32⟩
  | 10 => ⟨S512x512, .f32⟩
  | 11 => ⟨S512x512, .f32⟩
  | 12 => ⟨S_, .f32⟩
  | 13 => ⟨S512x512, .f32⟩
  | 14 => ⟨S512x512, .i1⟩
  | 15 => ⟨S262144, .i1⟩
  | 16 => ⟨S262144, .i32⟩
  | 17 => ⟨S_, .i32⟩
  | 18 => ⟨S_, .i32⟩
  | 19 => ⟨S262144, .i32⟩
  | 20 => ⟨S_, .i32⟩
  | 21 => ⟨S130816, .i32⟩
  | 22 => ⟨S_, .i32⟩
  | 23 => ⟨S_, .i32⟩
  | 24 => ⟨S262144, .i32⟩
  | 25 => ⟨S262144, .i32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S_, .i32⟩
  | 35 => ⟨S262144, .i32⟩
  | 36 => ⟨S130816, .i32⟩
  | 37 => ⟨S_, .i32⟩
  | 38 => ⟨S_, .i32⟩
  | 39 => ⟨S130816, .i32⟩
  | 40 => ⟨S_, .i32⟩
  | 41 => ⟨S130816, .i32⟩
  | 42 => ⟨S130816, .i32⟩
  | 43 => ⟨S130816, .i32⟩
  | 44 => ⟨S_, .i32⟩
  | 45 => ⟨S130816, .i32⟩
  | 46 => ⟨S130816, .i1⟩
  | 47 => ⟨S130816, .i32⟩
  | 48 => ⟨S130816, .i32⟩
  | 49 => ⟨S_, .i32⟩
  | 50 => ⟨S130816, .i32⟩
  | 51 => ⟨S130816, .i1⟩
  | 52 => ⟨S130816, .i1⟩
  | 53 => ⟨S_, .i32⟩
  | 54 => ⟨S130816, .i32⟩
  | 55 => ⟨S130816, .i32⟩
  | 56 => ⟨S130816, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S130816, .i32⟩
  | 64 => ⟨S130816, .i32⟩
  | 65 => ⟨S_, .i32⟩
  | 66 => ⟨S130816, .i32⟩
  | 67 => ⟨S130816, .i1⟩
  | 68 => ⟨S_, .i32⟩
  | 69 => ⟨S130816, .i32⟩
  | 70 => ⟨S130816, .i1⟩
  | 71 => ⟨S_, .i32⟩
  | 72 => ⟨S_, .i1⟩
  | 73 => ⟨S130816, .i1⟩
  | 74 => ⟨S130816, .i1⟩
  | 75 => ⟨S130816, .i1⟩
  | 76 => ⟨S130816, .i32⟩
  | 77 => ⟨S130816, .i32⟩
  | 78 => ⟨S130816, .i32⟩
  | 79 => ⟨S_, .i32⟩
  | 80 => ⟨S130816, .i32⟩
  | 81 => ⟨S130816, .i32⟩
  | 82 => ⟨S130816, .i32⟩
  | 83 => ⟨S_, .i32⟩
  | 84 => ⟨S130816, .i32⟩
  | 85 => ⟨S130816, .i1⟩
  | 86 => ⟨S130816, .i32⟩
  | 87 => ⟨S130816, .i32⟩
  | 88 => ⟨S_, .i32⟩
  | 89 => ⟨S130816, .i32⟩
  | 90 => ⟨S130816, .i1⟩
  | 91 => ⟨S130816, .i1⟩
  | 92 => ⟨S_, .i32⟩
  | 93 => ⟨S130816, .i32⟩
  | 94 => ⟨S130816, .i32⟩
  | 95 => ⟨S130816, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S130816, .i32⟩
  | 103 => ⟨S130816, .i32⟩
  | 104 => ⟨S_, .i32⟩
  | 105 => ⟨S130816, .i32⟩
  | 106 => ⟨S130816, .i1⟩
  | 107 => ⟨S_, .i32⟩
  | 108 => ⟨S130816, .i32⟩
  | 109 => ⟨S130816, .i1⟩
  | 110 => ⟨S_, .i32⟩
  | 111 => ⟨S_, .i1⟩
  | 112 => ⟨S130816, .i1⟩
  | 113 => ⟨S130816, .i1⟩
  | 114 => ⟨S130816, .i1⟩
  | 115 => ⟨S130816, .i32⟩
  | 116 => ⟨S130816, .i32⟩
  | 117 => ⟨S130816, .i32⟩
  | 118 => ⟨S130816x1, .i32⟩
  | 119 => ⟨S130816x1, .i32⟩
  | 120 => ⟨S130816x2, .i32⟩
  | 121 => ⟨S8x512x512, .f32⟩
  | 122 => ⟨S_, .i32⟩
  | 123 => ⟨S130816, .i32⟩
  | 124 => ⟨S130816, .i1⟩
  | 125 => ⟨S_, .i32⟩
  | 126 => ⟨S130816, .i32⟩
  | 127 => ⟨S130816, .i32⟩
  | _ => ⟨S8x512x128, .f32⟩

abbrev hbmTy0_1 (i : Nat) : BufTy := match i % 128 with
  | 0 => ⟨S130816, .i32⟩
  | 1 => ⟨S_, .i32⟩
  | 2 => ⟨S130816, .i32⟩
  | 3 => ⟨S130816, .i1⟩
  | 4 => ⟨S_, .i32⟩
  | 5 => ⟨S130816, .i32⟩
  | 6 => ⟨S130816, .i32⟩
  | 7 => ⟨S130816, .i32⟩
  | 8 => ⟨S130816x1, .i32⟩
  | 9 => ⟨S130816x1, .i32⟩
  | 10 => ⟨S130816x2, .i32⟩
  | 11 => ⟨S8x130816, .f32⟩
  | _ => ⟨S8x512x128, .f32⟩

abbrev hbmTy (i : Nat) : BufTy := match i / 128 with
  | 0 => hbmTy0_0 i
  | 1 => hbmTy0_1 i
  | _ => ⟨S8x512x128, .f32⟩

abbrev bufTy : (tb : Table) → Fin (tcTables nBuf tb) → BufTy
  | .hbm, ⟨i, _⟩ => hbmTy i
  | .local _ .vmem, ⟨0, _⟩ => ⟨S1x512x128, .f32⟩
  | .local _ .vmem, ⟨1, _⟩ => ⟨S1x512x128, .f32⟩
  | .local _ .vmem, ⟨2, _⟩ => ⟨S1x512x512, .f32⟩
  | .local _ .vmem, ⟨3, _⟩ => ⟨S1x512x512, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_call0_c : Ref sig .tc := ⟨.hbm, 17, rfl⟩
abbrev main_call1_call0_v0 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_call2_v1 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_call3_call0_c : Ref sig .tc := ⟨.hbm, 37, rfl⟩
abbrev main_call3_call0_v0 : Ref sig .tc := ⟨.hbm, 38, rfl⟩
abbrev main_v15 : Ref sig .tc := ⟨.hbm, 39, rfl⟩
abbrev main_c_5 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_v5 : Ref sig .tc := ⟨.hbm, 46, rfl⟩
abbrev main_call4_v6 : Ref sig .tc := ⟨.hbm, 47, rfl⟩
abbrev main_call4_v7 : Ref sig .tc := ⟨.hbm, 48, rfl⟩
abbrev main_call4_c : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_c_0 : Ref sig .tc := ⟨.hbm, 53, rfl⟩
abbrev main_call4_v11 : Ref sig .tc := ⟨.hbm, 54, rfl⟩
abbrev main_call4_v12 : Ref sig .tc := ⟨.hbm, 55, rfl⟩
abbrev main_v16 : Ref sig .tc := ⟨.hbm, 56, rfl⟩
abbrev main_c_6 : Ref sig .tc := ⟨.hbm, 57, rfl⟩
abbrev main_call5_v0 : Ref sig .tc := ⟨.hbm, 58, rfl⟩
abbrev main_call5_c : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_c_1 : Ref sig .tc := ⟨.hbm, 65, rfl⟩
abbrev main_call5_v5 : Ref sig .tc := ⟨.hbm, 66, rfl⟩
abbrev main_call5_v6 : Ref sig .tc := ⟨.hbm, 67, rfl⟩
abbrev main_call5_c_2 : Ref sig .tc := ⟨.hbm, 68, rfl⟩
abbrev main_call5_v7 : Ref sig .tc := ⟨.hbm, 69, rfl⟩
abbrev main_call5_v8 : Ref sig .tc := ⟨.hbm, 70, rfl⟩
abbrev main_call5_c_3 : Ref sig .tc := ⟨.hbm, 71, rfl⟩
abbrev main_call5_v9 : Ref sig .tc := ⟨.hbm, 72, rfl⟩
abbrev main_call5_v10 : Ref sig .tc := ⟨.hbm, 73, rfl⟩
abbrev main_call5_v11 : Ref sig .tc := ⟨.hbm, 74, rfl⟩
abbrev main_call5_v12 : Ref sig .tc := ⟨.hbm, 75, rfl⟩
abbrev main_call5_v13 : Ref sig .tc := ⟨.hbm, 76, rfl⟩
abbrev main_call5_v14 : Ref sig .tc := ⟨.hbm, 77, rfl⟩
abbrev main_v17 : Ref sig .tc := ⟨.hbm, 78, rfl⟩
abbrev main_c_7 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_call6_v5 : Ref sig .tc := ⟨.hbm, 85, rfl⟩
abbrev main_call6_v6 : Ref sig .tc := ⟨.hbm, 86, rfl⟩
abbrev main_call6_v7 : Ref sig .tc := ⟨.hbm, 87, rfl⟩
abbrev main_call6_c : Ref sig .tc := ⟨.hbm, 88, rfl⟩
abbrev main_call6_v8 : Ref sig .tc := ⟨.hbm, 89, rfl⟩
abbrev main_call6_v9 : Ref sig .tc := ⟨.hbm, 90, rfl⟩
abbrev main_call6_v10 : Ref sig .tc := ⟨.hbm, 91, rfl⟩
abbrev main_call6_c_0 : Ref sig .tc := ⟨.hbm, 92, rfl⟩
abbrev main_call6_v11 : Ref sig .tc := ⟨.hbm, 93, rfl⟩
abbrev main_call6_v12 : Ref sig .tc := ⟨.hbm, 94, rfl⟩
abbrev main_v18 : Ref sig .tc := ⟨.hbm, 95, rfl⟩
abbrev main_c_8 : Ref sig .tc := ⟨.hbm, 96, rfl⟩
abbrev main_call7_v0 : Ref sig .tc := ⟨.hbm, 97, rfl⟩
abbrev main_call7_c : Ref sig .tc := ⟨.hbm, 98, rfl⟩
abbrev main_call7_v1 : Ref sig .tc := ⟨.hbm, 99, rfl⟩
abbrev main_call7_c_0 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_c_1 : Ref sig .tc := ⟨.hbm, 104, rfl⟩
abbrev main_call7_v5 : Ref sig .tc := ⟨.hbm, 105, rfl⟩
abbrev main_call7_v6 : Ref sig .tc := ⟨.hbm, 106, rfl⟩
abbrev main_call7_c_2 : Ref sig .tc := ⟨.hbm, 107, rfl⟩
abbrev main_call7_v7 : Ref sig .tc := ⟨.hbm, 108, rfl⟩
abbrev main_call7_v8 : Ref sig .tc := ⟨.hbm, 109, rfl⟩
abbrev main_call7_c_3 : Ref sig .tc := ⟨.hbm, 110, rfl⟩
abbrev main_call7_v9 : Ref sig .tc := ⟨.hbm, 111, rfl⟩
abbrev main_call7_v10 : Ref sig .tc := ⟨.hbm, 112, rfl⟩
abbrev main_call7_v11 : Ref sig .tc := ⟨.hbm, 113, rfl⟩
abbrev main_call7_v12 : Ref sig .tc := ⟨.hbm, 114, rfl⟩
abbrev main_call7_v13 : Ref sig .tc := ⟨.hbm, 115, rfl⟩
abbrev main_call7_v14 : Ref sig .tc := ⟨.hbm, 116, rfl⟩
abbrev main_v19 : Ref sig .tc := ⟨.hbm, 117, rfl⟩
abbrev main_v20 : Ref sig .tc := ⟨.hbm, 118, rfl⟩
abbrev main_v21 : Ref sig .tc := ⟨.hbm, 119, rfl⟩
abbrev main_v22 : Ref sig .tc := ⟨.hbm, 120, rfl⟩
abbrev main_v23 : Ref sig .tc := ⟨.hbm, 121, rfl⟩
abbrev main_c_9 : Ref sig .tc := ⟨.hbm, 122, rfl⟩
abbrev main_v24 : Ref sig .tc := ⟨.hbm, 123, rfl⟩
abbrev main_v25 : Ref sig .tc := ⟨.hbm, 124, rfl⟩
abbrev main_c_10 : Ref sig .tc := ⟨.hbm, 125, rfl⟩
abbrev main_v26 : Ref sig .tc := ⟨.hbm, 126, rfl⟩
abbrev main_v27 : Ref sig .tc := ⟨.hbm, 127, rfl⟩
abbrev main_v28 : Ref sig .tc := ⟨.hbm, 128, rfl⟩
abbrev main_c_11 : Ref sig .tc := ⟨.hbm, 129, rfl⟩
abbrev main_v29 : Ref sig .tc := ⟨.hbm, 130, rfl⟩
abbrev main_v30 : Ref sig .tc := ⟨.hbm, 131, rfl⟩
abbrev main_c_12 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  bcast_S130816_S130816x1_0 : S130816.BroadcastsInDim S130816x1 (![0] : Fin 1 → Fin S130816x1.rank)
  concatenates_S130816x1_S130816x1_S130816x2_d1 : Shape.Concatenates [S130816x1, S130816x1] S130816x2 1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  scatter_S130816_S262144x1_S262144_n_0_0_1_wf : ScatterDims.WF S130816 S262144x1 S262144 [] [0] [0] 1
  dot_S512x128_S512x128_S512x512_1_1_0_0_n_n_wf : DotDims.WF S512x128 S512x128 S512x512 [1] [1] [0] [0] [] []
  gather_S8x512x512_S130816x2_S8x130816_0_12_n_n_12_1_811_wf : GatherDims.WF S8x512x512 S130816x2 S8x130816 [0] [1, 2] [] [1, 2] [] 1 ![8, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S8x512x128.size a
  hwx0_0 : ∀ i : grid0.Coords, EltTy.bits .f32 = 32 ∨ (Rect.block (s := S8x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)

variable [Facts₀]

def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def gather_S8x512x512_S130816x2_S8x130816_0_12_n_n_12_1_811 : GatherDims S8x512x512 S130816x2 S8x130816 where
  offsetDims := [0]
  collapsedSliceDims := [1, 2]
  operandBatchingDims := []
  startIndicesBatchingDims := []
  startIndexMap := [1, 2]
  indexVectorDim := 1
  sliceSizes := ![8, 1, 1]
  wf := gather_S8x512x512_S130816x2_S8x130816_0_12_n_n_12_1_811_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x512x128 : Shape := ⟨3, ![8, 512, 128]⟩
abbrev S_ : Shape := ⟨0, ![]⟩
abbrev S512x512 : Shape := ⟨2, ![512, 512]⟩
abbrev S262144 : Shape := ⟨1, ![262144]⟩
abbrev S130816 : Shape := ⟨1, ![130816]⟩
abbrev S262144x1 : Shape := ⟨2, ![262144, 1]⟩
abbrev S130816x1 : Shape := ⟨2, ![130816, 1]⟩
abbrev S130816x2 : Shape := ⟨2, ![130816, 2]⟩
abbrev S8x130816x128 : Shape := ⟨3, ![8, 130816, 128]⟩
abbrev S8x130816 : Shape := ⟨2, ![8, 130816]⟩

abbrev nBuf : Space → Nat
  | .hbm => 142
  | .vmem => 0
  | .smem => 0
  | _ => 0

abbrev hbmTy0_0 (i : Nat) : BufTy := match i % 128 with
  | 0 => ⟨S8x512x128, .f32⟩
  | 1 => ⟨S_, .f32⟩
  | 2 => ⟨S512x512, .f32⟩
  | 3 => ⟨S512x512, .i32⟩
  | 4 => ⟨S_, .i32⟩
  | 5 => ⟨S512x512, .i32⟩
  | 6 => ⟨S512x512, .i32⟩
  | 7 => ⟨S512x512, .i32⟩
  | 8 => ⟨S512x512, .i1⟩
  | 9 => ⟨S_, .f32⟩
  | 10 => ⟨S512x512, .f32⟩
  | 11 => ⟨S512x512, .f32⟩
  | 12 => ⟨S_, .f32⟩
  | 13 => ⟨S512x512, .f32⟩
  | 14 => ⟨S512x512, .i1⟩
  | 15 => ⟨S262144, .i1⟩
  | 16 => ⟨S262144, .i32⟩
  | 17 => ⟨S_, .i32⟩
  | 18 => ⟨S_, .i32⟩
  | 19 => ⟨S262144, .i32⟩
  | 20 => ⟨S_, .i32⟩
  | 21 => ⟨S130816, .i32⟩
  | 22 => ⟨S_, .i32⟩
  | 23 => ⟨S_, .i32⟩
  | 24 => ⟨S262144, .i32⟩
  | 25 => ⟨S262144, .i32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S_, .i32⟩
  | 35 => ⟨S262144, .i32⟩
  | 36 => ⟨S130816, .i32⟩
  | 37 => ⟨S_, .i32⟩
  | 38 => ⟨S_, .i32⟩
  | 39 => ⟨S130816, .i32⟩
  | 40 => ⟨S_, .i32⟩
  | 41 => ⟨S130816, .i32⟩
  | 42 => ⟨S130816, .i32⟩
  | 43 => ⟨S130816, .i32⟩
  | 44 => ⟨S_, .i32⟩
  | 45 => ⟨S130816, .i32⟩
  | 46 => ⟨S130816, .i1⟩
  | 47 => ⟨S130816, .i32⟩
  | 48 => ⟨S130816, .i32⟩
  | 49 => ⟨S_, .i32⟩
  | 50 => ⟨S130816, .i32⟩
  | 51 => ⟨S130816, .i1⟩
  | 52 => ⟨S130816, .i1⟩
  | 53 => ⟨S_, .i32⟩
  | 54 => ⟨S130816, .i32⟩
  | 55 => ⟨S130816, .i32⟩
  | 56 => ⟨S130816, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S130816, .i32⟩
  | 64 => ⟨S130816, .i32⟩
  | 65 => ⟨S_, .i32⟩
  | 66 => ⟨S130816, .i32⟩
  | 67 => ⟨S130816, .i1⟩
  | 68 => ⟨S_, .i32⟩
  | 69 => ⟨S130816, .i32⟩
  | 70 => ⟨S130816, .i1⟩
  | 71 => ⟨S_, .i32⟩
  | 72 => ⟨S_, .i1⟩
  | 73 => ⟨S130816, .i1⟩
  | 74 => ⟨S130816, .i1⟩
  | 75 => ⟨S130816, .i1⟩
  | 76 => ⟨S130816, .i32⟩
  | 77 => ⟨S130816, .i32⟩
  | 78 => ⟨S130816, .i32⟩
  | 79 => ⟨S_, .i32⟩
  | 80 => ⟨S130816, .i32⟩
  | 81 => ⟨S130816, .i32⟩
  | 82 => ⟨S130816, .i32⟩
  | 83 => ⟨S_, .i32⟩
  | 84 => ⟨S130816, .i32⟩
  | 85 => ⟨S130816, .i1⟩
  | 86 => ⟨S130816, .i32⟩
  | 87 => ⟨S130816, .i32⟩
  | 88 => ⟨S_, .i32⟩
  | 89 => ⟨S130816, .i32⟩
  | 90 => ⟨S130816, .i1⟩
  | 91 => ⟨S130816, .i1⟩
  | 92 => ⟨S_, .i32⟩
  | 93 => ⟨S130816, .i32⟩
  | 94 => ⟨S130816, .i32⟩
  | 95 => ⟨S130816, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S130816, .i32⟩
  | 103 => ⟨S130816, .i32⟩
  | 104 => ⟨S_, .i32⟩
  | 105 => ⟨S130816, .i32⟩
  | 106 => ⟨S130816, .i1⟩
  | 107 => ⟨S_, .i32⟩
  | 108 => ⟨S130816, .i32⟩
  | 109 => ⟨S130816, .i1⟩
  | 110 => ⟨S_, .i32⟩
  | 111 => ⟨S_, .i1⟩
  | 112 => ⟨S130816, .i1⟩
  | 113 => ⟨S130816, .i1⟩
  | 114 => ⟨S130816, .i1⟩
  | 115 => ⟨S130816, .i32⟩
  | 116 => ⟨S130816, .i32⟩
  | 117 => ⟨S130816, .i32⟩
  | 118 => ⟨S130816x1, .i32⟩
  | 119 => ⟨S130816x1, .i32⟩
  | 120 => ⟨S130816x2, .i32⟩
  | 121 => ⟨S_, .i32⟩
  | 122 => ⟨S130816, .i32⟩
  | 123 => ⟨S130816, .i1⟩
  | 124 => ⟨S_, .i32⟩
  | 125 => ⟨S130816, .i32⟩
  | 126 => ⟨S130816, .i32⟩
  | 127 => ⟨S130816, .i32⟩
  | _ => ⟨S8x512x128, .f32⟩

abbrev hbmTy0_1 (i : Nat) : BufTy := match i % 128 with
  | 0 => ⟨S130816x1, .i32⟩
  | 1 => ⟨S8x130816x128, .f32⟩
  | 2 => ⟨S_, .i32⟩
  | 3 => ⟨S130816, .i32⟩
  | 4 => ⟨S130816, .i1⟩
  | 5 => ⟨S_, .i32⟩
  | 6 => ⟨S130816, .i32⟩
  | 7 => ⟨S130816, .i32⟩
  | 8 => ⟨S130816, .i32⟩
  | 9 => ⟨S130816x1, .i32⟩
  | 10 => ⟨S8x130816x128, .f32⟩
  | 11 => ⟨S8x130816x128, .f32⟩
  | 12 => ⟨S_, .f32⟩
  | 13 => ⟨S8x130816, .f32⟩
  | _ => ⟨S8x512x128, .f32⟩

abbrev hbmTy (i : Nat) : BufTy := match i / 128 with
  | 0 => hbmTy0_0 i
  | 1 => hbmTy0_1 i
  | _ => ⟨S8x512x128, .f32⟩

abbrev bufTy : (tb : Table) → Fin (tcTables nBuf tb) → BufTy
  | .hbm, ⟨i, _⟩ => hbmTy i
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_call0_c : Ref sig .tc := ⟨.hbm, 17, rfl⟩
abbrev main_call1_call0_v0 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_call2_v1 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_call3_call0_c : Ref sig .tc := ⟨.hbm, 37, rfl⟩
abbrev main_call3_call0_v0 : Ref sig .tc := ⟨.hbm, 38, rfl⟩
abbrev main_v15 : Ref sig .tc := ⟨.hbm, 39, rfl⟩
abbrev main_c_5 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_v5 : Ref sig .tc := ⟨.hbm, 46, rfl⟩
abbrev main_call4_v6 : Ref sig .tc := ⟨.hbm, 47, rfl⟩
abbrev main_call4_v7 : Ref sig .tc := ⟨.hbm, 48, rfl⟩
abbrev main_call4_c : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_c_0 : Ref sig .tc := ⟨.hbm, 53, rfl⟩
abbrev main_call4_v11 : Ref sig .tc := ⟨.hbm, 54, rfl⟩
abbrev main_call4_v12 : Ref sig .tc := ⟨.hbm, 55, rfl⟩
abbrev main_v16 : Ref sig .tc := ⟨.hbm, 56, rfl⟩
abbrev main_c_6 : Ref sig .tc := ⟨.hbm, 57, rfl⟩
abbrev main_call5_v0 : Ref sig .tc := ⟨.hbm, 58, rfl⟩
abbrev main_call5_c : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_c_1 : Ref sig .tc := ⟨.hbm, 65, rfl⟩
abbrev main_call5_v5 : Ref sig .tc := ⟨.hbm, 66, rfl⟩
abbrev main_call5_v6 : Ref sig .tc := ⟨.hbm, 67, rfl⟩
abbrev main_call5_c_2 : Ref sig .tc := ⟨.hbm, 68, rfl⟩
abbrev main_call5_v7 : Ref sig .tc := ⟨.hbm, 69, rfl⟩
abbrev main_call5_v8 : Ref sig .tc := ⟨.hbm, 70, rfl⟩
abbrev main_call5_c_3 : Ref sig .tc := ⟨.hbm, 71, rfl⟩
abbrev main_call5_v9 : Ref sig .tc := ⟨.hbm, 72, rfl⟩
abbrev main_call5_v10 : Ref sig .tc := ⟨.hbm, 73, rfl⟩
abbrev main_call5_v11 : Ref sig .tc := ⟨.hbm, 74, rfl⟩
abbrev main_call5_v12 : Ref sig .tc := ⟨.hbm, 75, rfl⟩
abbrev main_call5_v13 : Ref sig .tc := ⟨.hbm, 76, rfl⟩
abbrev main_call5_v14 : Ref sig .tc := ⟨.hbm, 77, rfl⟩
abbrev main_v17 : Ref sig .tc := ⟨.hbm, 78, rfl⟩
abbrev main_c_7 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_call6_v5 : Ref sig .tc := ⟨.hbm, 85, rfl⟩
abbrev main_call6_v6 : Ref sig .tc := ⟨.hbm, 86, rfl⟩
abbrev main_call6_v7 : Ref sig .tc := ⟨.hbm, 87, rfl⟩
abbrev main_call6_c : Ref sig .tc := ⟨.hbm, 88, rfl⟩
abbrev main_call6_v8 : Ref sig .tc := ⟨.hbm, 89, rfl⟩
abbrev main_call6_v9 : Ref sig .tc := ⟨.hbm, 90, rfl⟩
abbrev main_call6_v10 : Ref sig .tc := ⟨.hbm, 91, rfl⟩
abbrev main_call6_c_0 : Ref sig .tc := ⟨.hbm, 92, rfl⟩
abbrev main_call6_v11 : Ref sig .tc := ⟨.hbm, 93, rfl⟩
abbrev main_call6_v12 : Ref sig .tc := ⟨.hbm, 94, rfl⟩
abbrev main_v18 : Ref sig .tc := ⟨.hbm, 95, rfl⟩
abbrev main_c_8 : Ref sig .tc := ⟨.hbm, 96, rfl⟩
abbrev main_call7_v0 : Ref sig .tc := ⟨.hbm, 97, rfl⟩
abbrev main_call7_c : Ref sig .tc := ⟨.hbm, 98, rfl⟩
abbrev main_call7_v1 : Ref sig .tc := ⟨.hbm, 99, rfl⟩
abbrev main_call7_c_0 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_c_1 : Ref sig .tc := ⟨.hbm, 104, rfl⟩
abbrev main_call7_v5 : Ref sig .tc := ⟨.hbm, 105, rfl⟩
abbrev main_call7_v6 : Ref sig .tc := ⟨.hbm, 106, rfl⟩
abbrev main_call7_c_2 : Ref sig .tc := ⟨.hbm, 107, rfl⟩
abbrev main_call7_v7 : Ref sig .tc := ⟨.hbm, 108, rfl⟩
abbrev main_call7_v8 : Ref sig .tc := ⟨.hbm, 109, rfl⟩
abbrev main_call7_c_3 : Ref sig .tc := ⟨.hbm, 110, rfl⟩
abbrev main_call7_v9 : Ref sig .tc := ⟨.hbm, 111, rfl⟩
abbrev main_call7_v10 : Ref sig .tc := ⟨.hbm, 112, rfl⟩
abbrev main_call7_v11 : Ref sig .tc := ⟨.hbm, 113, rfl⟩
abbrev main_call7_v12 : Ref sig .tc := ⟨.hbm, 114, rfl⟩
abbrev main_call7_v13 : Ref sig .tc := ⟨.hbm, 115, rfl⟩
abbrev main_call7_v14 : Ref sig .tc := ⟨.hbm, 116, rfl⟩
abbrev main_v19 : Ref sig .tc := ⟨.hbm, 117, rfl⟩
abbrev main_v20 : Ref sig .tc := ⟨.hbm, 118, rfl⟩
abbrev main_v21 : Ref sig .tc := ⟨.hbm, 119, rfl⟩
abbrev main_v22 : Ref sig .tc := ⟨.hbm, 120, rfl⟩
abbrev main_c_9 : Ref sig .tc := ⟨.hbm, 121, rfl⟩
abbrev main_v23 : Ref sig .tc := ⟨.hbm, 122, rfl⟩
abbrev main_v24 : Ref sig .tc := ⟨.hbm, 123, rfl⟩
abbrev main_c_10 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_v28 : Ref sig .tc := ⟨.hbm, 128, rfl⟩
abbrev main_v29 : Ref sig .tc := ⟨.hbm, 129, rfl⟩
abbrev main_c_11 : Ref sig .tc := ⟨.hbm, 130, rfl⟩
abbrev main_v30 : Ref sig .tc := ⟨.hbm, 131, rfl⟩
abbrev main_v31 : Ref sig .tc := ⟨.hbm, 132, rfl⟩
abbrev main_c_12 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_cst_13 : Ref sig .tc := ⟨.hbm, 140, rfl⟩
abbrev main_v38 : Ref sig .tc := ⟨.hbm, 141, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  bcast_S130816_S130816x1_0 : S130816.BroadcastsInDim S130816x1 (![0] : Fin 1 → Fin S130816x1.rank)
  concatenates_S130816x1_S130816x1_S130816x2_d1 : Shape.Concatenates [S130816x1, S130816x1] S130816x2 1
  reducesTo_S8x130816x128_S8x130816_d2 : S8x130816x128.ReducesTo [2] S8x130816
  scatter_S130816_S262144x1_S262144_n_0_0_1_wf : ScatterDims.WF S130816 S262144x1 S262144 [] [0] [0] 1
  gather_S8x512x128_S130816x1_S8x130816x128_02_1_n_n_1_1_81128_wf : GatherDims.WF S8x512x128 S130816x1 S8x130816x128 [0, 2] [1] [] [1] [] 1 ![8, 1, 128]

variable [Facts₀]

def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def gather_S8x512x128_S130816x1_S8x130816x128_02_1_n_n_1_1_81128 : GatherDims S8x512x128 S130816x1 S8x130816x128 where
  offsetDims := [0, 2]
  collapsedSliceDims := [1]
  operandBatchingDims := []
  startIndicesBatchingDims := []
  startIndexMap := [1]
  indexVectorDim := 1
  sliceSizes := ![8, 1, 128]
  wf := gather_S8x512x128_S130816x1_S8x130816x128_02_1_n_n_1_1_81128_wf

class Facts : Prop extends Facts₀ where

variable [Facts]
-- ==== Proof.LibTransposedMatmul.lean ====
/-
  A matrix product with the right operand transposed, into a zero accumulator, read at an entry, at the exact
  (extended-real) values.

  For an m×k matrix A and an n×k matrix B, contracting the last axis of both, the product's (a, b) entry is the sum
  over the contracted coordinate c of A(a, c) · B(b, c) — the (a, b) entry of A·Bᵀ: the contraction's index set has
  one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the product of an m×k matrix with the transpose of an n×k matrix, accumulated into the zero
    matrix, is `∑ c, A (a, c) * B (b, c)` on the extended reals. -/
theorem matmul_transposedRhs_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul (DotDims.transposedRhs m k n) prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact hc
  have er : (DotDims.transposedRhs m k n).rhsIdx (ix2 a b) ((contrEquiv1 (DotDims.transposedRhs m k n) k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact hc
  rw [el, er]

end Idealize.ShloMosaic.ValueIdx

end
-- ==== Proof.GramBlock.lean ====
/-
  What one grid point of the kernel computes.

  At a grid point the kernel body loads one batch element's [1, 512, 128] block x, drops the unit axis, narrows to
  bf16 (the identity on exact values), multiplies the [512, 128] matrix by its own transpose into a zero accumulator
  and stores the [512, 512] product back under a unit axis.  So the stored block's entry (·, i, j) is the inner
  product of rows i and j of the loaded block: ∑ d, x(0, i, d) · x(0, j, d).
-/
import proofs.«142524_j52441550684608_1_alg».proof.Proof.Gen.KernelIdeal.Skeleton
import proofs.«142524_j52441550684608_1_alg».proof.Proof.LibTransposedMatmul
import Idealize.ShloMosaic.Lib.ValueLayout
import Idealize.ShloMosaic.Lib.ValueIdx

noncomputable section

open scoped BigOperators

namespace Cert.KernelIdeal.GramBlock

open Cert.KernelIdeal Cert.KernelIdeal.Gen Idealize.ShloMosaic Idealize.ShloMosaic.ValueIdx

/-- The stored block at (u, i, j): the inner product of rows i and j of the loaded block. -/
theorem pay_apply (x0 : Vec Ideal S1x512x128 .f32) (u : Fin 1) (i j : Fin 512) :
    k0_pay1 (F := Ideal) x0 (ix3 u i j) = ∑ d : Fin 128, x0 (ix3 (0 : Fin 1) i d) * x0 (ix3 (0 : Fin 1) j d) := by
  unfold k0_pay1
  refine (shapeCast_ab_1ab_apply _ _ u i j).trans ?_
  refine (matmul_transposedRhs_zero_apply (m := 512) (k := 128) (n := 512) none _ _ i j).trans ?_
  refine Finset.sum_congr rfl fun d _ => ?_
  rw [truncf_apply, truncf_apply, shapeCast_1ab_ab_apply, shapeCast_1ab_ab_apply]

end Cert.KernelIdeal.GramBlock

end
-- ==== Proof.GramArray.lean ====
/-
  The array the kernel region leaves: the Gram matrix of every batch element.

  The region's grid has one point per batch element b = 0..7.  Point b fetches rows (b, ·, ·) of the argument — block
  index (b, 0, 0), a whole [512, 128] slab — and writes back the [512, 512] slab (b, ·, ·) of the result, which holds
  the inner products of the fetched slab's rows.  The eight written slabs tile the result array, so after the region it
  holds, at (b, i, j), the sum over d of x(b, i, d) · x(b, j, d) for the argument x as the region found it.
-/
import proofs.«142524_j52441550684608_1_alg».proof.Proof.Gen.KernelIdeal.Frame
import proofs.«142524_j52441550684608_1_alg».proof.Proof.GramBlock
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.GramArray

open Cert.KernelIdeal Cert.KernelIdeal.Gen

variable (m : (ℓ : Loc nD τ sig) → Buf (Elt Ideal) ℓ) (ρ : Dev nD → PrngReg)

/-- The inner product of rows i and j of batch element b. -/
def gramAt (x : S8x512x128.Idx → EReal) (b : Fin 8) (i j : Fin 512) : EReal :=
  ∑ d : Fin 128, x (ix3 b i d) * x (ix3 b j d)

/-- All of them, as an [8, 512, 512] array. -/
def gram (x : S8x512x128.Idx → EReal) : S8x512x512.Idx → EReal := fun q => gramAt x (q 0) (q 1) (q 2)

theorem gram_apply (x : S8x512x128.Idx → EReal) (b : Fin 8) (i j : Fin 512) : gram x (ix3 b i j) = gramAt x b i j := rfl

theorem hz3 : (![0, 0, 0] : Fin 3 → Nat) = fun _ => 0 := funext fun a => by fin_cases a <;> rfl

/-- The printed index maps, decided over the grid: both windows sit at block (t, 0, 0) at point t. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input block at point t is slab t of the argument as the region finds it. -/
theorem iblk_apply (c : Dev nD) (t : Fin cfg0.N) (u : Fin 1) (i : Fin 512) (d : Fin 128) (b : Fin 8) (hb : b.val = t.val) :
    (iblk m c 0 t : Vec Ideal S1x512x128 .f32) (ix3 u i d) = (V m c main_arg0 : S8x512x128.Idx → EReal) (ix3 b i d) := by
  obtain ⟨e0, e1, e2, -, -, -⟩ := idx_facts t
  have hu : u.val = 0 := by omega
  unfold iblk
  rw [View.read_apply]
  show V m c main_arg0 _ = V m c main_arg0 _
  congr 1
  funext a
  apply Fin.ext
  match a with
  | ⟨0, _⟩ => show win0_0.index t 0 * 1 + 1 * u.val = b.val; rw [e0, hb, hu]; omega
  | ⟨1, _⟩ => show win0_0.index t 1 * 512 + 1 * i.val = i.val; rw [e1]; omega
  | ⟨2, _⟩ => show win0_0.index t 2 * 128 + 1 * d.val = d.val; rw [e2]; omega

/-- WHAT POINT t WRITES BACK is slab t of the Gram array of the argument as the region finds it. -/
theorem flushed_eq (c : Dev nD) (t : Fin cfg0.N) :
    (dats m 0 c).flushed 1 t = ((cfg0.win 1).blk t).view.read (Elt Ideal) (gram (V m c main_arg0)) := by
  show (cfg0.win 1).cut (grid0.coords t) ((dats m 0 c).after 1 t) = _
  rw [after0_1]
  unfold out0_1
  rw [View.canon_unit_zero hz3]
  simp only [View.ld_unit_zero (S := S1x512x128) hz3]
  obtain ⟨-, -, -, e0, e1, e2⟩ := idx_facts t
  have ht : t.val < 8 := by have := t.isLt; have hN : cfg0.N = 8 := N_0; omega
  funext y
  obtain ⟨u, i, j, rfl⟩ : ∃ (u : Fin 1) (i j : Fin 512), y = ix3 u i j := ⟨y 0, y 1, y 2, eq_ix3 y⟩
  have hu : u.val = 0 := by omega
  refine (GramBlock.pay_apply _ u i j).trans ?_
  rw [View.read_apply]
  have hemb : ((cfg0.win 1).blk t).view.emb (ix3 u i j) = (ix3 (⟨t.val, ht⟩ : Fin 8) i j : S8x512x512.Idx) := by
    funext a
    apply Fin.ext
    match a with
    | ⟨0, _⟩ => show win0_1.index t 0 * 1 + 1 * u.val = t.val; rw [e0, hu]; omega
    | ⟨1, _⟩ => show win0_1.index t 1 * 512 + 1 * i.val = i.val; rw [e1]; omega
    | ⟨2, _⟩ => show win0_1.index t 2 * 512 + 1 * j.val = j.val; rw [e2]; omega
  rw [hemb, gram_apply]
  unfold gramAt
  refine Finset.sum_congr rfl fun d _ => ?_
  rw [iblk_apply m c t (0 : Fin 1) i d ⟨t.val, ht⟩ rfl, iblk_apply m c t (0 : Fin 1) j d ⟨t.val, ht⟩ rfl]

/-- An index of the array is in point t's block iff each coordinate is in the block's range on its axis. -/
theorem mem_blk (t : Fin cfg0.N) (q : S8x512x512.Idx) :
    q ∈ ((cfg0.win 1).blk t).view.set ↔ ∀ a : Fin 3, win0_1.index t a * S1x512x512.size a ≤ (q a).val ∧ (q a).val < win0_1.index t a * S1x512x512.size a + S1x512x512.size a := by
  show q ∈ ((View.whole main_v23).slice (win0_1.rect t)).set ↔ _
  rw [View.set_slice_whole, Rect.mem_set_unit]
  exact Iff.rfl

/-- THE ARRAY after the region: the Gram array of the argument as the region finds it (slab b is point b's). -/
theorem final (c : Dev nD) : (dats m 0 c).arrAt 1 cfg0.N = gram (V m c main_arg0) :=
  (dats m 0 c).arrAt_eq_of_cover 1 (gram (V m c main_arg0)) (fun t _ => flushed_eq m c t) fun q => by
    have h0 : (q 0).val < 8 := (q 0).isLt
    have h1 : (q 1).val < 512 := (q 1).isLt
    have h2 : (q 2).val < 512 := (q 2).isLt
    let t : Fin cfg0.N := ⟨(q 0).val, by have hN : cfg0.N = 8 := N_0; omega⟩
    obtain ⟨-, -, -, e0, e1, e2⟩ := idx_facts t
    refine ⟨t, flush0_1 t, ?_⟩
    rw [mem_blk]
    intro a
    match a with
    | ⟨0, _⟩ => show win0_1.index t 0 * 1 ≤ (q 0).val ∧ (q 0).val < win0_1.index t 0 * 1 + 1; rw [e0]; show (q 0).val * 1 ≤ (q 0).val ∧ (q 0).val < (q 0).val * 1 + 1; omega
    | ⟨1, _⟩ => show win0_1.index t 1 * 512 ≤ (q 1).val ∧ (q 1).val < win0_1.index t 1 * 512 + 512; rw [e1]; omega
    | ⟨2, _⟩ => show win0_1.index t 2 * 512 ≤ (q 2).val ∧ (q 2).val < win0_1.index t 2 * 512 + 512; rw [e2]; omega

end Cert.KernelIdeal.GramArray

end
-- ==== Proof.KernelValue.lean ====
/-
  What the kernel program's two results hold after a run.

  After the region the program wraps the pair indices i and j (an entry below zero gets 512 added), lays them side by
  side as an [130816, 2] table and gathers, from the [8, 512, 512] array the region left, the entries
  (b, i(p), j(p)): the first result.  The second result, the table of the unwrapped i and j, was written before the
  region and nothing after it writes it.  The region's array is the Gram array of the argument (the eight slabs the grid
  points wrote back), and the argument itself ends unchanged.
-/
import proofs.«142524_j52441550684608_1_alg».proof.Proof.GramArray
import Idealize.ShloMosaic.Lib.StableHlo.Run
import Idealize.ShloMosaic.Lib.Pipeline.FrameSuffix

set_option maxRecDepth 16384

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen

variable {F : FTy → Type} [FloatOps F]

/-- An index array with 512 added to its negative entries. -/
def wrap (i : IVec S130816 32) : IVec S130816 32 :=
  select (cmpi .slt i (broadcastInDim S130816 ![] bcast_S_S130816 (constantI S_ 32 0#32)))
    (addi i (broadcastInDim S130816 ![] bcast_S_S130816 (constantI S_ 32 512#32))) i

/-- The two wrapped index arrays side by side. -/
def table (i j : IVec S130816 32) : IVec S130816x2 32 :=
  concatenate S130816x2 1 [⟨S130816x1, broadcastInDim S130816x1 ![0] bcast_S130816_S130816x1_0 (wrap i)⟩,
    ⟨S130816x1, broadcastInDim S130816x1 ![0] bcast_S130816_S130816x1_0 (wrap j)⟩] concatenates_S130816x1_S130816x1_S130816x2_d1

/-- The lines after the region as one function of the region's array and the two index arrays. -/
def gatherPairs (G : FVec F S8x512x512 .f32) (i j : IVec S130816 32) : FVec F S8x130816 .f32 :=
  Host.gather gather_S8x512x512_S130816x2_S8x130816_0_12_n_n_12_1_811 G (table i j)

/-- The first result's buffer after the lines that follow the region, from any contents. -/
theorem tail_v37 (W : Valuation τ sig (Elt F)) :
    after (hostOps1 (F := F)) W (Proc.devRef .tc main_v37)
      = gatherPairs (F := F) (W (Proc.devRef .tc main_v23)) (W (Proc.devRef .tc main_v17)) (W (Proc.devRef .tc main_v19)) := by
  simp only [hostOps1]
  after_results_simp
  rfl

/-- None of them writes the index table. -/
theorem tail_v22 (W : Valuation τ sig (Elt F)) :
    after (hostOps1 (F := F)) W (Proc.devRef .tc main_v22) = W (Proc.devRef .tc main_v22) := by
  simp only [hostOps1]
  after_results_simp

variable (m : (ℓ : Loc nD τ sig) → Buf (Elt Ideal) ℓ) (ρ : Dev nD → PrngReg)

/-- The contents when the region is entered (what the lines before it leave of the launch contents), under a name that
    nothing unfolds by itself. -/
@[irreducible] def before (c : Dev nD) : Valuation τ sig (Elt Ideal) := V0 m c

theorem before_eq (c : Dev nD) : before m c = V0 m c := by unfold before; rfl

/-- The run, read: the first result is the pair gather of the Gram array of the argument, at the index arrays the lines
    before the region left; the second is the table they left; the argument is unchanged. -/
theorem run : θ_run defs (onTc (τ := τ) (main (F := Ideal))) ⟨m, fun _ => 0, ρ⟩ fun r => ∀ c : Dev nD,
      r.2.mem ((c.tc : Thread nD τ).loc main_v37)
        = gatherPairs (F := Ideal) (GramArray.gram (m ((c.tc : Thread nD τ).loc main_arg0)))
            (before m c (Proc.devRef .tc main_v17)) (before m c (Proc.devRef .tc main_v19))
      ∧ r.2.mem ((c.tc : Thread nD τ).loc main_v22) = before m c (Proc.devRef .tc main_v22)
      ∧ r.2.mem ((c.tc : Thread nD τ).loc main_arg0) = m ((c.tc : Thread nD τ).loc main_arg0) := by
  refine (θ_run defs _ _).mono (fun r h c => ⟨?_, ?_, ?_⟩) (run_main m ρ)
  · refine ((h c).2 main_v37 (Pipeline.mem_restRefs_of main_v37 rfl (by decide))).trans ?_
    unfold Pipeline.afterTail₀
    show after hostOps1 _ (Proc.devRef .tc main_v37) = _
    rw [tail_v37 (F := Ideal)]
    have e23 := (Pipeline.withArrays_arr spec0 launch0.win.arr_inj c (V0 m c) (fun w => (dats m 0 c).arrAt w cfg0.N) 1).trans (GramArray.final m c)
    have e17 := Pipeline.withArrays_of_ne spec0 c (V0 m c) (fun w => (dats m 0 c).arrAt w cfg0.N) main_v17 (by decide)
    have e19 := Pipeline.withArrays_of_ne spec0 c (V0 m c) (fun w => (dats m 0 c).arrAt w cfg0.N) main_v19 (by decide)
    rw [e17, e19, before_eq]
    refine congrArg (fun G => gatherPairs (F := Ideal) G _ _) ?_
    exact e23.trans (congrArg GramArray.gram (V_main_arg0 m c))
  · refine ((h c).2 main_v22 (Pipeline.mem_restRefs_of main_v22 rfl (by decide))).trans ?_
    unfold Pipeline.afterTail₀
    show after hostOps1 _ (Proc.devRef .tc main_v22) = _
    rw [tail_v22 (F := Ideal), before_eq]
    exact Pipeline.withArrays_of_ne spec0 c (V0 m c) (fun w => (dats m 0 c).arrAt w cfg0.N) main_v22 (by decide)
  · exact ((h c).1 0).trans (((dats m 0 c).arrAt_in 0 rfl _).trans ((A_eq m c 0).trans (V_main_arg0 m c)))

end Cert.KernelIdeal.Tail

end
-- ==== Proof.LibAfterAppend.lean ====
/-
  A line of host operations run in two parts.

  The buffer contents after a list of host operations are a fold of the operations over the starting contents, so the
  contents after a concatenation are those after the second part, started from what the first part left. A long line
  one of whose intermediate results is read several times can thus be read part by part, the shared result kept as
  one term.
-/
import Idealize.ShloMosaic.Lib.StableHlo.Run

namespace Cert.LibAfterAppend

open Idealize.ShloMosaic Idealize.ShloMosaic.StableHlo

variable {τ : Topo} {sig : RefSig} {Val : EltTy → Type}

/-- Running `l₁ ++ l₂` from the contents `V` is running `l₂` from what `l₁` leaves of `V`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfterAppend
-- ==== Proof.RefLine.lean ====
/-
  The reference program as one straight line of host operations.

  The reference's entry function calls small functions that were outlined when it was traced (the upper-triangle
  mask, two running sums, a clamp, floor division, remainder, two selects).  A call executes the callee's operations
  on the call's own buffers, so the whole program is a straight line: the callee's operations, listed here once per
  function over the call's buffer record, spliced in at each call.  The line falls into two parts.  The FIRST part
  reads no argument: from constants alone it builds the two integer arrays i and j that enumerate the pairs
  i < j of 0..511 in lexicographic order, and their two-column table, the second result.  The SECOND part wraps and
  clamps i and j, gathers rows i(p) and j(p) of every batch of the argument, multiplies them entry by entry and sums
  over the feature axis: the first result.

  Every weakly fair execution of the line terminates with each buffer at the fold of the operations over the launch
  contents (the library's run of a straight line).
-/
import proofs.«142524_j52441550684608_1_alg».proof.Proof.Gen.ReferenceIdeal
import proofs.«142524_j52441550684608_1_alg».proof.Proof.LibAfterAppend
import Idealize.ShloMosaic.Lib.StableHlo.Run

noncomputable section

namespace Cert.ReferenceIdeal.Line

open Cert.ReferenceIdeal Idealize.ShloMosaic Idealize.ShloMosaic.TcCoe Idealize.SL.Sem
open Idealize.ShloMosaic.StableHlo
open Facts₀

variable {F : FTy → Type} [FloatOps F]

/-! ## The outlined functions, each as the list of its operations over one call's buffers -/

/-- The strict-upper-triangle mask of a 512 × 512 array: entries with row ≥ column are replaced by zero. -/
abbrev triuOps (a0 : TRef sig ⟨S512x512, .f32⟩) (φ : fn_triu.Bufs) : List (HloOp τ sig (Elt F)) :=
  [ TRef.nullary φ.v0 (iotaInDim S512x512 32 0),
    TRef.nullary φ.c (constantI S_ 32 0#32),
    TRef.unary φ.c φ.v1 (broadcastInDim S512x512 ![] bcast_S_S512x512),
    TRef.binary φ.v0 φ.v1 φ.v2 addi,
    TRef.nullary φ.v3 (iotaInDim S512x512 32 1),
    TRef.binary φ.v2 φ.v3 φ.v4 (cmpi .sge),
    TRef.nullary φ.cst (constant S_ .f32 0x00000000#32),
    TRef.unary φ.cst φ.v5 (broadcastInDim S512x512 ![] bcast_S_S512x512),
    TRef.ternary φ.v4 φ.v5 a0 φ.v6 select ]

/-- The running sum of a flat array of 262144 integers (a windowed sum reaching back to the start). -/
abbrev runSumAOps (a0 : TRef sig ⟨S262144, .i32⟩) (φ : fn_cumsum_0.Bufs) : List (HloOp τ sig (Elt F)) :=
  [ TRef.nullary φ.c (constantI S_ 32 0#32),
    TRef.unary φ.c φ.v0 (broadcastInDim S_ ![] bcast_S_S_),
    TRef.binary a0 φ.v0 φ.v1 (fun x v => Host.reduceWindow IntOp.addi ![262144] ![1] ![262143] ![0] x v reduceWindows_S262144_S262144_w262144s1p262143_0 h_S_) ]

/-- The mask flattened, read as 0 / 1, and summed along. -/
abbrev maskSumOps (a0 : TRef sig ⟨S512x512, .i1⟩) (φ : fn_cumsum.Bufs) : List (HloOp τ sig (Elt F)) :=
  [ TRef.reshape a0 φ.v0 rfl shapeCasts_S512x512_S262144,
    TRef.unary φ.v0 φ.v1 (extui 32 · natLt_1_32) ]
  ++ runSumAOps φ.v1 φ.call0

/-- The maximum with a scalar bound. -/
abbrev clipOps (a0 : TRef sig ⟨S262144, .i32⟩) (a1 : TRef sig ⟨S_, .i32⟩) (φ : fn_clip.Bufs) : List (HloOp τ sig (Elt F)) :=
  [ TRef.unary a1 φ.v0 id,
    TRef.unary φ.v0 φ.v1 (broadcastInDim S262144 ![] bcast_S_S262144),
    TRef.binary φ.v1 a0 φ.v2 maxsi ]

/-- The running sum of a flat array of 130816 integers. -/
abbrev runSumBOps (a0 : TRef sig ⟨S130816, .i32⟩) (φ : fn_cumsum_2.Bufs) : List (HloOp τ sig (Elt F)) :=
  [ TRef.nullary φ.c (constantI S_ 32 0#32),
    TRef.unary φ.c φ.v0 (broadcastInDim S_ ![] bcast_S_S_),
    TRef.binary a0 φ.v0 φ.v1 (fun x v => Host.reduceWindow IntOp.addi ![130816] ![1] ![130815] ![0] x v reduceWindows_S130816_S130816_w130816s1p130815_0 h_S_) ]

/-- Floor division of an integer array by a scalar: the truncated quotient, less one where the signs differ and the
    division is inexact. -/
abbrev floorDivOps (a0 : TRef sig ⟨S130816, .i32⟩) (a1 : TRef sig ⟨S_, .i32⟩) (φ : fn_floor_divide.Bufs) : List (HloOp τ sig (Elt F)) :=
  [ TRef.unary a1 φ.v0 (broadcastInDim S130816 ![] bcast_S_S130816),
    TRef.binary a0 φ.v0 φ.v1 Host.divsi,
    TRef.unary a0 φ.v2 signi,
    TRef.unary a1 φ.v3 signi,
    TRef.unary φ.v3 φ.v4 (broadcastInDim S130816 ![] bcast_S_S130816),
    TRef.binary φ.v2 φ.v4 φ.v5 (cmpi .ne),
    TRef.unary a1 φ.v6 (broadcastInDim S130816 ![] bcast_S_S130816),
    TRef.binary a0 φ.v6 φ.v7 Host.remsi,
    TRef.nullary φ.c (constantI S_ 32 0#32),
    TRef.unary φ.c φ.v8 (broadcastInDim S130816 ![] bcast_S_S130816),
    TRef.binary φ.v7 φ.v8 φ.v9 (cmpi .ne),
    TRef.binary φ.v5 φ.v9 φ.v10 andi,
    TRef.nullary φ.c_0 (constantI S_ 32 1#32),
    TRef.unary φ.c_0 φ.v11 (broadcastInDim S130816 ![] bcast_S_S130816),
    TRef.binary φ.v1 φ.v11 φ.v12 subi,
    TRef.ternary φ.v10 φ.v12 φ.v1 φ.call0.v0 select ]

/-- The remainder of an integer array by a scalar with the sign of the divisor (a zero divisor replaced by one). -/
abbrev remainderOps (a0 : TRef sig ⟨S130816, .i32⟩) (a1 : TRef sig ⟨S_, .i32⟩) (φ : fn_remainder.Bufs) : List (HloOp τ sig (Elt F)) :=
  [ TRef.unary a1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S130816 ![] bcast_S_S130816),
    TRef.binary a0 φ.v3 φ.v4 Host.remsi,
    TRef.nullary φ.c_1 (constantI S_ 32 0#32),
    TRef.unary φ.c_1 φ.v5 (broadcastInDim S130816 ![] bcast_S_S130816),
    TRef.binary φ.v4 φ.v5 φ.v6 (cmpi .ne),
    TRef.nullary φ.c_2 (constantI S_ 32 0#32),
    TRef.unary φ.c_2 φ.v7 (broadcastInDim S130816 ![] bcast_S_S130816),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S130816 ![] bcast_S_S130816),
    TRef.binary φ.v8 φ.v10 φ.v11 (cmpi .ne),
    TRef.binary φ.v11 φ.v6 φ.v12 andi,
    TRef.unary φ.call0.v0 φ.v13 (broadcastInDim S130816 ![] bcast_S_S130816),
    TRef.binary φ.v4 φ.v13 φ.v14 addi,
    TRef.ternary φ.v12 φ.v14 φ.v4 φ.v15 select ]

/-! ## The two parts of the line -/

/-- The part that reads no argument: the pair indices i (buffer %17), j (%19) and their table (%22). -/
abbrev pairOps : List (HloOp τ sig (Elt F)) :=
  [ nullary main_cst (constant S_ .f32 0x3F800000#32),
    unary main_cst main_v0 (broadcastInDim S512x512 ![] bcast_S_S512x512) ]
  ++ triuOps (.of main_v0) main_call0
  ++ [ nullary main_cst_0 (constant S_ .f32 0x00000000#32),
       unary main_cst_0 main_v2 (broadcastInDim S512x512 ![] bcast_S_S512x512),
       binary main_v1 main_v2 main_v3 (cmpf .une) ]
  ++ maskSumOps (.of main_v3) main_call1
  ++ [ nullary main_c (constantI S_ 32 0#32),
       unary main_c main_v5 (broadcastInDim S130816 ![] bcast_S_S130816),
       nullary main_c_1 (constantI S_ 32 0#32) ]
  ++ clipOps (.of main_v4) (.of main_c_1) main_call2
  ++ [ nullary main_c_2 (constantI S_ 32 0#32),
       unary main_c_2 main_v7 (broadcastInDim S262144 ![] bcast_S_S262144),
       binary main_v6 main_v7 main_v8 (cmpi .slt),
       nullary main_c_3 (constantI S_ 32 130816#32),
       unary main_c_3 main_v9 (broadcastInDim S262144 ![] bcast_S_S262144),
       binary main_v6 main_v9 main_v10 addi,
       ternary main_v8 main_v10 main_v6 main_v11 select,
       unary main_v11 main_v12 (broadcastInDim S262144x1 ![0] bcast_S262144_S262144x1_0),
       nullary main_c_4 (constantI S_ 32 1#32),
       unary main_c_4 main_v13 (broadcastInDim S262144 ![] bcast_S_S262144),
       ternary main_v5 main_v12 main_v13 main_v14 (fun x i u => Host.scatter scatter_S130816_S262144x1_S262144_n_0_0_1 IntOp.addi x i u) ]
  ++ runSumBOps (.of main_v14) main_call3.call0
  ++ [ nullary main_c_5 (constantI S_ 32 512#32) ]
  ++ floorDivOps (.of main_v15) (.of main_c_5) main_call4
  ++ [ nullary main_c_6 (constantI S_ 32 512#32) ]
  ++ remainderOps (.of main_v16) (.of main_c_6) main_call5
  ++ [ nullary main_c_7 (constantI S_ 32 1#32) ]
  ++ floorDivOps (.of main_v15) (.of main_c_7) main_call6
  ++ [ nullary main_c_8 (constantI S_ 32 512#32) ]
  ++ remainderOps (.of main_v18) (.of main_c_8) main_call7
  ++ [ unary main_v17 main_v20 (broadcastInDim S130816x1 ![0] bcast_S130816_S130816x1_0),
       unary main_v19 main_v21 (broadcastInDim S130816x1 ![0] bcast_S130816_S130816x1_0),
       binary main_v20 main_v21 main_v22 (fun a b => concatenate S130816x2 1 [⟨S130816x1, a⟩, ⟨S130816x1, b⟩] concatenates_S130816x1_S130816x1_S130816x2_d1) ]

/-- The part that reads the argument: rows i(p) and j(p) gathered, multiplied and summed over the features (%38). -/
abbrev dotOps : List (HloOp τ sig (Elt F)) :=
  [ nullary main_c_9 (constantI S_ 32 0#32),
    unary main_c_9 main_v23 (broadcastInDim S130816 ![] bcast_S_S130816),
    binary main_v17 main_v23 main_v24 (cmpi .slt),
    nullary main_c_10 (constantI S_ 32 512#32),
    unary main_c_10 main_v25 (broadcastInDim S130816 ![] bcast_S_S130816),
    binary main_v17 main_v25 main_v26 addi,
    ternary main_v24 main_v26 main_v17 main_v27 select,
    unary main_v27 main_v28 (broadcastInDim S130816x1 ![0] bcast_S130816_S130816x1_0),
    binary main_arg0 main_v28 main_v29 (fun x i => Host.gather gather_S8x512x128_S130816x1_S8x130816x128_02_1_n_n_1_1_81128 x i),
    nullary main_c_11 (constantI S_ 32 0#32),
    unary main_c_11 main_v30 (broadcastInDim S130816 ![] bcast_S_S130816),
    binary main_v19 main_v30 main_v31 (cmpi .slt),
    nullary main_c_12 (constantI S_ 32 512#32),
    unary main_c_12 main_v32 (broadcastInDim S130816 ![] bcast_S_S130816),
    binary main_v19 main_v32 main_v33 addi,
    ternary main_v31 main_v33 main_v19 main_v34 select,
    unary main_v34 main_v35 (broadcastInDim S130816x1 ![0] bcast_S130816_S130816x1_0),
    binary main_arg0 main_v35 main_v36 (fun x i => Host.gather gather_S8x512x128_S130816x1_S8x130816x128_02_1_n_n_1_1_81128 x i),
    binary main_v29 main_v36 main_v37 mulf,
    nullary main_cst_13 (constant S_ .f32 0x00000000#32),
    binary main_v37 main_cst_13 main_v38 (fun x v => Host.reduceAdd x v reducesTo_S8x130816x128_S8x130816_d2 h_S_) ]

/-- The whole line. -/
abbrev ops : List (HloOp τ sig (Elt F)) := pairOps ++ dotOps

-- some hundred and thirty binds re-associated: the rewrite under the chain recurses once per statement
set_option maxRecDepth 4096 in
/-- The entry function is that line: the functions' definitions unfolded at their calls and the records at their
    fields, both sides are one chain of host steps once sequencing is re-associated. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body, ops, pairOps, dotOps, triuOps, maskSumOps,
    runSumAOps, clipOps, runSumBOps, floorDivOps, remainderOps, List.cons_append, List.nil_append, List.append_assoc,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- The whole line under one name that nothing unfolds by itself: the run below is stated over it, and a reader of a
    result buffer opens it with `line_eq`. -/
@[irreducible] def line : List (HloOp τ sig (Elt F)) := ops

theorem line_eq : (line : List (HloOp τ sig (Elt F))) = ops (F := F) := by unfold line; rfl

theorem main_line (c : Dev nD) : main (F := F) c = seq (line (F := F)) :=
  (main_eq (F := F) c).trans (congrArg seq (line_eq (F := F)).symm)

/-- Every operation of the line touches TensorCore buffers only. -/
theorem line_sub : (line : List (HloOp τ sig (Elt F))).Forall fun op => op.bufs ⊆ tcRefs τ sig := by
  unfold line
  simp only [ops, pairOps, dotOps, triuOps, maskSumOps, runSumAOps, clipOps, runSumBOps, floorDivOps, remainderOps,
    List.cons_append, List.nil_append, List.append_assoc, List.Forall, nullary_bufs_sub, unary_bufs_sub, binary_bufs_sub,
    ternary_bufs_sub, reshape_bufs_sub, and_self]

/-- Every operation of the line determines its result (none allocates a buffer of unchosen contents). -/
theorem line_fresh' : (line : List (HloOp τ sig (Elt F))).Forall fun op => op.fresh = ∅ := by
  unfold line
  simp only [ops, pairOps, dotOps, triuOps, maskSumOps, runSumAOps, clipOps, runSumBOps, floorDivOps, remainderOps,
    List.cons_append, List.nil_append, List.append_assoc, List.Forall]
  repeat' constructor

theorem line_fresh : ∀ op ∈ (line : List (HloOp τ sig (Elt F))), op.fresh = ∅ :=
  List.forall_iff_forall_mem.mp (line_fresh' (F := F))

/-- On every device, for any float values, from any memory with zero counters: every weakly fair execution of the
    reference terminates, and every final state has each TensorCore buffer at the fold of the line over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (line (F := F)) (launchContents m c) (b : DevRef τ sig) :=
  run_seq scopedRefs_eq scopedSems_eq (defs (F := F)) (main (F := F)) (fun _ => line (F := F)) (main_line (F := F)) (fun _ => line_sub (F := F)) m ρ
    (fun _ => line_fresh (F := F))

end Cert.ReferenceIdeal.Line

end
-- ==== Proof.RefValue.lean ====
/-
  What the reference program's two results hold after a run.

  The second part of the line wraps the pair indices i and j (an entry below zero gets 512 added), gathers rows i(p)
  and rows j(p) of every batch element of the argument, multiplies them entry by entry and sums over the feature axis
  from zero: the first result.  It writes neither the index table (the second result) nor the argument, and the first
  part, which builds i, j and the table from constants alone, does not write the argument either.
-/
import proofs.«142524_j52441550684608_1_alg».proof.Proof.RefLine

noncomputable section

open Idealize.ShloMosaic Idealize.ShloMosaic.TcCoe Idealize.SL.Sem Idealize.ShloMosaic.StableHlo

namespace Cert.ReferenceIdeal.Tail

open Cert.ReferenceIdeal Cert.ReferenceIdeal.Line
open Facts₀

variable {F : FTy → Type} [FloatOps F]

/-- An index array with 512 added to its negative entries. -/
def wrap (i : IVec S130816 32) : IVec S130816 32 :=
  select (cmpi .slt i (broadcastInDim S130816 ![] bcast_S_S130816 (constantI S_ 32 0#32)))
    (addi i (broadcastInDim S130816 ![] bcast_S_S130816 (constantI S_ 32 512#32))) i

/-- Rows i(p) of every batch element: an [8, 130816, 128] array. -/
def rows (x : FVec F S8x512x128 .f32) (i : IVec S130816 32) : FVec F S8x130816x128 .f32 :=
  Host.gather gather_S8x512x128_S130816x1_S8x130816x128_02_1_n_n_1_1_81128 x
    (broadcastInDim S130816x1 ![0] bcast_S130816_S130816x1_0 (wrap i))

/-- The second part of the line as one function of the argument and the two index arrays. -/
def dotPairs (x : FVec F S8x512x128 .f32) (i j : IVec S130816 32) : FVec F S8x130816 .f32 :=
  Host.reduceAdd (mulf (rows x i) (rows x j)) (constant (F := F) S_ .f32 0x00000000#32) reducesTo_S8x130816x128_S8x130816_d2 h_S_

/-- The first result's buffer after the second part, from any contents. -/
theorem dot_v38 (W : Valuation τ sig (Elt F)) :
    after (dotOps (F := F)) W (Proc.devRef .tc main_v38)
      = dotPairs (F := F) (W (Proc.devRef .tc main_arg0)) (W (Proc.devRef .tc main_v17)) (W (Proc.devRef .tc main_v19)) := by
  simp only [dotOps]
  after_results_simp
  rfl

/-- The second part writes neither the table nor the argument. -/
theorem dot_v22 (W : Valuation τ sig (Elt F)) :
    after (dotOps (F := F)) W (Proc.devRef .tc main_v22) = W (Proc.devRef .tc main_v22) := by
  simp only [dotOps]
  after_results_simp

theorem dot_arg0 (W : Valuation τ sig (Elt F)) :
    after (dotOps (F := F)) W (Proc.devRef .tc main_arg0) = W (Proc.devRef .tc main_arg0) := by
  simp only [dotOps]
  after_results_simp

set_option maxRecDepth 16384 in
set_option maxHeartbeats 1000000 in
/-- The first part does not write the argument. -/
theorem pair_arg0 (W : Valuation τ sig (Elt F)) :
    after (pairOps (F := F)) W (Proc.devRef .tc main_arg0) = W (Proc.devRef .tc main_arg0) := by
  simp only [pairOps, triuOps, maskSumOps, runSumAOps, clipOps, runSumBOps, floorDivOps, remainderOps,
    List.cons_append, List.nil_append, List.append_assoc]
  after_results_simp

variable (m : (ℓ : Loc nD τ sig) → Buf (Elt F) ℓ) (ρ : Dev nD → PrngReg)

/-- The contents the first part leaves, from the launch contents (under a name nothing unfolds by itself). -/
@[irreducible] def afterPairs (c : Dev nD) : Valuation τ sig (Elt F) := after (pairOps (F := F)) (launchContents m c)

theorem afterPairs_eq (c : Dev nD) : afterPairs m c = after (pairOps (F := F)) (launchContents m c) := by
  unfold afterPairs; rfl

/-- The first part leaves the argument as launched. -/
theorem afterPairs_arg0 (c : Dev nD) :
    afterPairs m c (Proc.devRef .tc main_arg0) = m ((c.tc : Thread nD τ).loc main_arg0) :=
  (congrFun (afterPairs_eq m c) (Proc.devRef .tc main_arg0)).trans (pair_arg0 (F := F) (launchContents m c))

/-- The line read in its two parts. -/
theorem line_split (c : Dev nD) (b : DevRef τ sig) :
    after (line (F := F)) (launchContents m c) b = after (dotOps (F := F)) (afterPairs m c) b :=
  (congrArg (fun l => after l (launchContents m c) b) (line_eq (F := F))).trans
    ((congrFun (Cert.LibAfterAppend.after_append (pairOps (F := F)) (dotOps (F := F)) (launchContents m c)) b).trans
      (congrArg (fun W => after (dotOps (F := F)) W b) (afterPairs_eq m c).symm))

/-- The run, read: the first result is the pairwise dot products of the argument's rows at the index arrays the first
    part left; the second is the table it left; the argument is unchanged. -/
theorem run : θ_run defs (onTc (τ := τ) (main (F := F))) ⟨m, fun _ => 0, ρ⟩ fun r => ∀ c : Dev nD,
      r.2.mem ((c.tc : Thread nD τ).loc main_v38)
        = dotPairs (F := F) (m ((c.tc : Thread nD τ).loc main_arg0))
            (afterPairs m c (Proc.devRef .tc main_v17)) (afterPairs m c (Proc.devRef .tc main_v19))
      ∧ r.2.mem ((c.tc : Thread nD τ).loc main_v22) = afterPairs m c (Proc.devRef .tc main_v22)
      ∧ r.2.mem ((c.tc : Thread nD τ).loc main_arg0) = m ((c.tc : Thread nD τ).loc main_arg0) :=
  (θ_run defs _ _).mono (fun r h c =>
    ⟨((h c main_v38).trans (line_split m c _)).trans ((dot_v38 (F := F) (afterPairs m c)).trans
        (congrArg (fun x => dotPairs (F := F) x (afterPairs m c (Proc.devRef .tc main_v17)) (afterPairs m c (Proc.devRef .tc main_v19)))
          (afterPairs_arg0 m c))),
      ((h c main_v22).trans (line_split m c _)).trans (dot_v22 (F := F) (afterPairs m c)),
      ((h c main_arg0).trans (line_split m c _)).trans ((dot_arg0 (F := F) (afterPairs m c)).trans (afterPairs_arg0 m c))⟩)
    (run_main (F := F) m ρ)

end Cert.ReferenceIdeal.Tail

end
-- ==== Proof.LibTypedRefCasts.lean ====
/-
  A tensor value stored into a buffer and read back is the value.

  A typed reference names a buffer together with the equation "the buffer's type is the value's type". Storing a value
  transports it along that equation and reading transports back, so reading what was stored is the identity — for any
  buffer, any type and any element interpretation, by taking the equation to be reflexivity. Rewriting with this
  removes the transports from the composed result of a line of operations on typed references before anything is
  compared definitionally.
-/
import Idealize.ShloMosaic.Lib.StableHlo

namespace Cert.LibTypedRefCasts

open Idealize.ShloMosaic Idealize.ShloMosaic.StableHlo

variable {sig : RefSig} {Val : EltTy → Type} {T : BufTy}

/-- Reading a value back through the buffer type it was stored at gives the value. -/
theorem ofBuf_toBuf (x : TRef sig T) (v : T.Contents Val) : x.ofBuf (x.toBuf v) = v := by
  obtain ⟨r, h1, h2, h3⟩ := x
  subst h1
  rfl

/-- Storing what was read through the buffer type gives it back. -/
theorem toBuf_ofBuf (x : TRef sig T) (w : x.ref.ty.Contents Val) : x.toBuf (x.ofBuf w) = w := by
  obtain ⟨r, h1, h2, h3⟩ := x
  subst h1
  rfl

end Cert.LibTypedRefCasts
-- ==== Proof.Indices.lean ====
/-
  The two programs build the same pair indices.

  Before it reads its argument each program runs the same operations on constants alone: the strict upper triangle of
  a 512 × 512 array of ones, its non-zero positions counted off by a running sum and scattered into a list, and each
  position split into its row i and its column j by floor division and remainder.  The two programs' lists of these
  operations are the same text over different buffers, so whatever contents they start from they leave the same array
  i, the same array j and the same two-column table of them.  Each side's fold is opened one operation at a time into
  one composed term of the constants (a value stored into a buffer and read back being the value), and the two terms
  are then the same term: nothing of it — no sum, no scatter, no division — is ever evaluated.
-/
import proofs.«142524_j52441550684608_1_alg».proof.Proof.Gen.KernelIdeal.Launch
import proofs.«142524_j52441550684608_1_alg».proof.Proof.RefLine
import proofs.«142524_j52441550684608_1_alg».proof.Proof.LibTypedRefCasts
import proofs.«142524_j52441550684608_1_alg».proof.Proof.LibAfterAppend
import Idealize.ShloMosaic.Lib.StableHlo.Run

noncomputable section

namespace Cert.Indices

open Idealize.ShloMosaic Idealize.ShloMosaic.TcCoe Idealize.SL.Sem Idealize.ShloMosaic.StableHlo

variable {F : FTy → Type} [FloatOps F]

/-- The kernel program's operations before its region, as one list. -/
abbrev kernelPairOps : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16]

/-- Opens both folds at a buffer into the composed terms and compares them. -/
local macro "same_term" : tactic =>
  `(tactic| (
    simp only [kernelPairOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16,
      List.flatten_cons, List.flatten_nil, List.append_nil, List.cons_append, List.nil_append, List.append_assoc,
      Cert.ReferenceIdeal.Line.pairOps, Cert.ReferenceIdeal.Line.triuOps, Cert.ReferenceIdeal.Line.maskSumOps, Cert.ReferenceIdeal.Line.runSumAOps, Cert.ReferenceIdeal.Line.clipOps,
      Cert.ReferenceIdeal.Line.runSumBOps, Cert.ReferenceIdeal.Line.floorDivOps, Cert.ReferenceIdeal.Line.remainderOps]
    after_results_simp
    simp only [Cert.LibTypedRefCasts.ofBuf_toBuf]
    rfl))

set_option maxHeartbeats 2000000 in
set_option maxRecDepth 65536 in
/-- The row indices i (buffer %17 of both programs). -/
theorem rows_eq (VK : Valuation Cert.KernelIdeal.τ Cert.KernelIdeal.sig (Elt F)) (VR : Valuation Cert.ReferenceIdeal.τ Cert.ReferenceIdeal.sig (Elt F)) :
    after (kernelPairOps (F := F)) VK (Proc.devRef .tc Cert.KernelIdeal.main_v17)
      = after (Cert.ReferenceIdeal.Line.pairOps (F := F)) VR (Proc.devRef .tc Cert.ReferenceIdeal.main_v17) := by
  same_term

set_option maxHeartbeats 2000000 in
set_option maxRecDepth 65536 in
/-- The column indices j (buffer %19 of both programs). -/
theorem cols_eq (VK : Valuation Cert.KernelIdeal.τ Cert.KernelIdeal.sig (Elt F)) (VR : Valuation Cert.ReferenceIdeal.τ Cert.ReferenceIdeal.sig (Elt F)) :
    after (kernelPairOps (F := F)) VK (Proc.devRef .tc Cert.KernelIdeal.main_v19)
      = after (Cert.ReferenceIdeal.Line.pairOps (F := F)) VR (Proc.devRef .tc Cert.ReferenceIdeal.main_v19) := by
  same_term

/-! ## The table

The last three operations of both lists lay i and j out as columns and join them.  They are read by themselves, after
any list of operations before them, so that the long list is opened only for i and for j. -/

/-- Two length-130816 integer arrays laid out as columns and joined: the [130816, 2] table. -/
def pairTable (h1 : (⟨1, ![130816]⟩ : Shape).BroadcastsInDim ⟨2, ![130816, 1]⟩ ![0])
    (h2 : Shape.Concatenates [⟨2, ![130816, 1]⟩, ⟨2, ![130816, 1]⟩] ⟨2, ![130816, 2]⟩ 1)
    (i j : IVec ⟨1, ![130816]⟩ 32) : IVec ⟨2, ![130816, 2]⟩ 32 :=
  concatenate ⟨2, ![130816, 2]⟩ 1 [⟨⟨2, ![130816, 1]⟩, broadcastInDim ⟨2, ![130816, 1]⟩ ![0] h1 i⟩,
    ⟨⟨2, ![130816, 1]⟩, broadcastInDim ⟨2, ![130816, 1]⟩ ![0] h1 j⟩] h2

/-- The kernel program's operations before the last three. -/
abbrev kernelHead : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15]

theorem kernelPairOps_eq : (kernelPairOps : List (HloOp Cert.KernelIdeal.τ Cert.KernelIdeal.sig (Elt F))) = kernelHead (F := F) ++ Cert.KernelIdeal.Gen.hostOps0_16 (F := F) := by
  simp only [kernelPairOps, kernelHead, List.flatten_cons, List.flatten_nil, List.append_nil, List.append_assoc]

/-- After any operations followed by the kernel program's last three, the table buffer holds the table of what the
    buffers of i and j hold. -/
theorem kernel_last (l : List (HloOp Cert.KernelIdeal.τ Cert.KernelIdeal.sig (Elt F))) (V : Valuation Cert.KernelIdeal.τ Cert.KernelIdeal.sig (Elt F)) :
    after (l ++ Cert.KernelIdeal.Gen.hostOps0_16 (F := F)) V (Proc.devRef .tc Cert.KernelIdeal.main_v22)
      = pairTable Cert.KernelIdeal.Gen.bcast_S130816_S130816x1_0 Cert.KernelIdeal.Gen.concatenates_S130816x1_S130816x1_S130816x2_d1
          (after (l ++ Cert.KernelIdeal.Gen.hostOps0_16 (F := F)) V (Proc.devRef .tc Cert.KernelIdeal.main_v17))
          (after (l ++ Cert.KernelIdeal.Gen.hostOps0_16 (F := F)) V (Proc.devRef .tc Cert.KernelIdeal.main_v19)) := by
  rw [Cert.LibAfterAppend.after_append]
  generalize after l V = W
  simp only [Cert.KernelIdeal.Gen.hostOps0_16, after_cons, after_nil]
  rfl

/-- The reference's last three operations of its first part. -/
abbrev refLast : List (HloOp Cert.ReferenceIdeal.τ Cert.ReferenceIdeal.sig (Elt F)) :=
  [ unary Cert.ReferenceIdeal.main_v17 Cert.ReferenceIdeal.main_v20 (broadcastInDim Cert.ReferenceIdeal.S130816x1 ![0] Cert.ReferenceIdeal.Facts₀.bcast_S130816_S130816x1_0),
    unary Cert.ReferenceIdeal.main_v19 Cert.ReferenceIdeal.main_v21 (broadcastInDim Cert.ReferenceIdeal.S130816x1 ![0] Cert.ReferenceIdeal.Facts₀.bcast_S130816_S130816x1_0),
    binary Cert.ReferenceIdeal.main_v20 Cert.ReferenceIdeal.main_v21 Cert.ReferenceIdeal.main_v22 (fun a b => concatenate Cert.ReferenceIdeal.S130816x2 1 [⟨Cert.ReferenceIdeal.S130816x1, a⟩, ⟨Cert.ReferenceIdeal.S130816x1, b⟩] Cert.ReferenceIdeal.Facts₀.concatenates_S130816x1_S130816x1_S130816x2_d1) ]

/-- After any operations followed by those three, the table buffer holds the table of what the buffers of i and j hold. -/
theorem ref_last (l : List (HloOp Cert.ReferenceIdeal.τ Cert.ReferenceIdeal.sig (Elt F))) (V : Valuation Cert.ReferenceIdeal.τ Cert.ReferenceIdeal.sig (Elt F)) :
    after (l ++ refLast (F := F)) V (Proc.devRef .tc Cert.ReferenceIdeal.main_v22)
      = pairTable Cert.ReferenceIdeal.Facts₀.bcast_S130816_S130816x1_0 Cert.ReferenceIdeal.Facts₀.concatenates_S130816x1_S130816x1_S130816x2_d1
          (after (l ++ refLast (F := F)) V (Proc.devRef .tc Cert.ReferenceIdeal.main_v17))
          (after (l ++ refLast (F := F)) V (Proc.devRef .tc Cert.ReferenceIdeal.main_v19)) := by
  rw [Cert.LibAfterAppend.after_append]
  generalize after l V = W
  simp only [refLast, after_cons, after_nil]
  rfl

/-- The table of the pairs (buffer %22 of both programs): the second result. -/
theorem table_eq (VK : Valuation Cert.KernelIdeal.τ Cert.KernelIdeal.sig (Elt F)) (VR : Valuation Cert.ReferenceIdeal.τ Cert.ReferenceIdeal.sig (Elt F)) :
    after (kernelPairOps (F := F)) VK (Proc.devRef .tc Cert.KernelIdeal.main_v22)
      = after (Cert.ReferenceIdeal.Line.pairOps (F := F)) VR (Proc.devRef .tc Cert.ReferenceIdeal.main_v22) := by
  have hk : after (kernelPairOps (F := F)) VK (Proc.devRef .tc Cert.KernelIdeal.main_v22)
      = pairTable Cert.KernelIdeal.Gen.bcast_S130816_S130816x1_0 Cert.KernelIdeal.Gen.concatenates_S130816x1_S130816x1_S130816x2_d1
          (after (kernelPairOps (F := F)) VK (Proc.devRef .tc Cert.KernelIdeal.main_v17))
          (after (kernelPairOps (F := F)) VK (Proc.devRef .tc Cert.KernelIdeal.main_v19)) := by
    rw [kernelPairOps_eq (F := F)]
    exact kernel_last (F := F) _ VK
  have hr : after (Cert.ReferenceIdeal.Line.pairOps (F := F)) VR (Proc.devRef .tc Cert.ReferenceIdeal.main_v22)
      = pairTable Cert.ReferenceIdeal.Facts₀.bcast_S130816_S130816x1_0 Cert.ReferenceIdeal.Facts₀.concatenates_S130816x1_S130816x1_S130816x2_d1
          (after (Cert.ReferenceIdeal.Line.pairOps (F := F)) VR (Proc.devRef .tc Cert.ReferenceIdeal.main_v17))
          (after (Cert.ReferenceIdeal.Line.pairOps (F := F)) VR (Proc.devRef .tc Cert.ReferenceIdeal.main_v19)) :=
    ref_last (F := F) _ VR
  rw [hk, hr, rows_eq (F := F) VK VR, cols_eq (F := F) VK VR]

end Cert.Indices

end
-- ==== Proof.LibGatherAxes.lean ====
/-
  Two general lemmas: `stablehlo.gather` from an array whose leading (batch) axis is kept whole, read at an index.

  PAIRS.  What `x[:, i, j]` of `x : [B, N, M]` at two integer vectors `i, j : [R]` lowers to once the two vectors are
  laid side by side as start indices `[R, 2]`: a gather whose result `[B, R]` has one offset axis (the batch), the
  operand's two trailing axes collapsed, start index map `[1, 2]`, slice sizes `[B, 1, 1]` and the index vector on
  axis 1 of the start indices.  Result element `(b, t)` is `x` at batch `b`, row `idx[t, 0]` and column `idx[t, 1]`,
  each read as a signed integer and clamped into its axis.

  MIDDLE ROWS.  What `x[:, i, :]` of `x : [B, N, C]` at an integer vector `i : [R]` (laid out as `[R, 1]`) lowers to:
  a gather whose result `[B, R, C]` has offset axes `[0, 2]`, the operand's middle axis collapsed, start index map
  `[1]` and slice sizes `[B, 1, C]`.  Result element `(b, t, f)` is `x` at batch `b`, row `idx[t, 0]` read signed and
  clamped into `[0, N − 1]`, and feature `f`.

  Both are the library's definition of the operand index opened one operand axis at a time: the start component on
  an axis the start index map names, the offset coordinate on an axis that is not collapsed, nothing else.
-/
import Idealize.ShloMosaic.Lib.ValueIdx

noncomputable section

namespace Cert.LibGatherAxes

open Idealize.ShloMosaic Idealize.ShloMosaic.ValueIdx

variable {α : Type}

/-! ## Pairs -/

/-- The dimension numbers of `x[:, i, j]` for an operand `[B, N, M]`, start indices `[R, 2]` and result `[B, R]`. -/
abbrev pairDims (B N M R : Nat)
    (wf : GatherDims.WF ⟨3, ![B, N, M]⟩ ⟨2, ![R, 2]⟩ ⟨2, ![B, R]⟩ [0] [1, 2] [] [1, 2] [] 1 ![B, 1, 1]) :
    GatherDims ⟨3, ![B, N, M]⟩ ⟨2, ![R, 2]⟩ ⟨2, ![B, R]⟩ where
  offsetDims := [0]
  collapsedSliceDims := [1, 2]
  operandBatchingDims := []
  startIndicesBatchingDims := []
  startIndexMap := [1, 2]
  indexVectorDim := 1
  sliceSizes := ![B, 1, 1]
  wf := wf

/-- THE PAIR GATHER READ AT `(b, t)`: the operand at batch `b`, row `idx[t, 0]` and column `idx[t, 1]`, each read
    signed and clamped into its axis. -/
theorem gather_pair_apply {B N M R w : Nat} (hN : 0 < N) (hM : 0 < M)
    (wf : GatherDims.WF ⟨3, ![B, N, M]⟩ ⟨2, ![R, 2]⟩ ⟨2, ![B, R]⟩ [0] [1, 2] [] [1, 2] [] 1 ![B, 1, 1])
    (x : (⟨3, ![B, N, M]⟩ : Shape).Idx → α) (idx : IVec ⟨2, ![R, 2]⟩ w) (b : Fin B) (t : Fin R) :
    Host.gather (pairDims B N M R wf) x idx (ix2 b t)
      = x (ix3 b ⟨min (idx (ix2 t (0 : Fin 2))).toInt.toNat (N - 1), by omega⟩
                 ⟨min (idx (ix2 t (1 : Fin 2))).toInt.toNat (M - 1), by omega⟩) := by
  unfold Host.gather
  congr 1
  funext a
  refine Fin.ext ?_
  match a with
  | ⟨0, _⟩ =>
    show (pairDims B N M R wf).start (ix2 b t) idx 0 + (pairDims B N M R wf).batchCoord (ix2 b t) 0
      + (pairDims B N M R wf).offCoord (ix2 b t) 0 = b.val
    rw [GatherDims.batchCoord_eq_zero _ _ _ List.not_mem_nil]
    have hs : (pairDims B N M R wf).start (ix2 b t) idx 0 = 0 := by
      unfold GatherDims.start
      rw [dif_neg (by simp)]
    have ho : (pairDims B N M R wf).offCoord (ix2 b t) 0 = b.val := by
      unfold GatherDims.offCoord
      rw [dif_pos ((GatherDims.mem_sKept _ _).mpr ⟨by simp, List.not_mem_nil⟩)]
      rfl
    rw [hs, ho]
    simp
  | ⟨1, _⟩ =>
    show (pairDims B N M R wf).start (ix2 b t) idx 1 + (pairDims B N M R wf).batchCoord (ix2 b t) 1
      + (pairDims B N M R wf).offCoord (ix2 b t) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (1 : Fin 3) ∈ (pairDims B N M R wf).startIndexMap by simp)]
    have hsi : (pairDims B N M R wf).siIdx (ix2 b t) ⟨List.idxOf (1 : Fin 3) (pairDims B N M R wf).startIndexMap,
        List.idxOf_lt_length_iff.2 (by simp)⟩ = ix2 t (0 : Fin 2) := by
      funext e; refine Fin.ext ?_
      match e with
      | ⟨0, _⟩ => rfl
      | ⟨1, _⟩ => rfl
    rw [hsi]
    rfl
  | ⟨2, _⟩ =>
    show (pairDims B N M R wf).start (ix2 b t) idx 2 + (pairDims B N M R wf).batchCoord (ix2 b t) 2
      + (pairDims B N M R wf).offCoord (ix2 b t) 2 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (2 : Fin 3) ∈ (pairDims B N M R wf).startIndexMap by simp)]
    have hsi : (pairDims B N M R wf).siIdx (ix2 b t) ⟨List.idxOf (2 : Fin 3) (pairDims B N M R wf).startIndexMap,
        List.idxOf_lt_length_iff.2 (by simp)⟩ = ix2 t (1 : Fin 2) := by
      funext e; refine Fin.ext ?_
      match e with
      | ⟨0, _⟩ => rfl
      | ⟨1, _⟩ => rfl
    rw [hsi]
    rfl

/-! ## Middle rows -/

/-- The dimension numbers of `x[:, i, :]` for an operand `[B, N, C]`, start indices `[R, 1]` and result `[B, R, C]`. -/
abbrev midDims (B N R C : Nat)
    (wf : GatherDims.WF ⟨3, ![B, N, C]⟩ ⟨2, ![R, 1]⟩ ⟨3, ![B, R, C]⟩ [0, 2] [1] [] [1] [] 1 ![B, 1, C]) :
    GatherDims ⟨3, ![B, N, C]⟩ ⟨2, ![R, 1]⟩ ⟨3, ![B, R, C]⟩ where
  offsetDims := [0, 2]
  collapsedSliceDims := [1]
  operandBatchingDims := []
  startIndicesBatchingDims := []
  startIndexMap := [1]
  indexVectorDim := 1
  sliceSizes := ![B, 1, C]
  wf := wf

/-- THE MIDDLE-ROW GATHER READ AT `(b, t, f)`: the operand at batch `b`, row `idx[t, 0]` read signed and clamped into
    `[0, N − 1]`, and feature `f`. -/
theorem gather_mid_apply {B N R C w : Nat} (hN : 0 < N)
    (wf : GatherDims.WF ⟨3, ![B, N, C]⟩ ⟨2, ![R, 1]⟩ ⟨3, ![B, R, C]⟩ [0, 2] [1] [] [1] [] 1 ![B, 1, C])
    (x : (⟨3, ![B, N, C]⟩ : Shape).Idx → α) (idx : IVec ⟨2, ![R, 1]⟩ w) (b : Fin B) (t : Fin R) (f : Fin C) :
    Host.gather (midDims B N R C wf) x idx (ix3 b t f)
      = x (ix3 b ⟨min (idx (ix2 t (0 : Fin 1))).toInt.toNat (N - 1), by omega⟩ f) := by
  unfold Host.gather
  congr 1
  funext a
  refine Fin.ext ?_
  match a with
  | ⟨0, _⟩ =>
    show (midDims B N R C wf).start (ix3 b t f) idx 0 + (midDims B N R C wf).batchCoord (ix3 b t f) 0
      + (midDims B N R C wf).offCoord (ix3 b t f) 0 = b.val
    rw [GatherDims.batchCoord_eq_zero _ _ _ List.not_mem_nil]
    have hs : (midDims B N R C wf).start (ix3 b t f) idx 0 = 0 := by
      unfold GatherDims.start
      rw [dif_neg (by simp)]
    have ho : (midDims B N R C wf).offCoord (ix3 b t f) 0 = b.val := by
      unfold GatherDims.offCoord
      rw [dif_pos ((GatherDims.mem_sKept _ _).mpr ⟨by simp, List.not_mem_nil⟩)]
      rfl
    rw [hs, ho]
    simp
  | ⟨1, _⟩ =>
    show (midDims B N R C wf).start (ix3 b t f) idx 1 + (midDims B N R C wf).batchCoord (ix3 b t f) 1
      + (midDims B N R C wf).offCoord (ix3 b t f) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (1 : Fin 3) ∈ (midDims B N R C wf).startIndexMap by simp)]
    have hsi : (midDims B N R C wf).siIdx (ix3 b t f) ⟨List.idxOf (1 : Fin 3) (midDims B N R C wf).startIndexMap,
        List.idxOf_lt_length_iff.2 (by simp)⟩ = ix2 t (0 : Fin 1) := by
      funext e; refine Fin.ext ?_
      match e with
      | ⟨0, _⟩ => rfl
      | ⟨1, _⟩ => rfl
    rw [hsi]
    rfl
  | ⟨2, _⟩ =>
    show (midDims B N R C wf).start (ix3 b t f) idx 2 + (midDims B N R C wf).batchCoord (ix3 b t f) 2
      + (midDims B N R C wf).offCoord (ix3 b t f) 2 = f.val
    rw [GatherDims.batchCoord_eq_zero _ _ _ List.not_mem_nil]
    have hs : (midDims B N R C wf).start (ix3 b t f) idx 2 = 0 := by
      unfold GatherDims.start
      rw [dif_neg (by simp)]
    have ho : (midDims B N R C wf).offCoord (ix3 b t f) 2 = f.val := by
      unfold GatherDims.offCoord
      rw [dif_pos ((GatherDims.mem_sKept _ _).mpr ⟨by simp, List.not_mem_nil⟩)]
      rfl
    rw [hs, ho]
    simp

end Cert.LibGatherAxes

end
-- ==== Proof.LibConcatColumns.lean ====
/-
  Two arrays laid side by side.

  An `[m, n₁]` array and an `[m, n₂]` array joined along their second axis give an `[m, N]` array whose entry at
  `(p, j)` is the first array's entry at `(p, j)` when `j` is below `n₁`, and the second array's entry at
  `(p, j − n₁)` otherwise.
-/
import Idealize.ShloMosaic.Lib.Pipeline.Value
import Idealize.ShloMosaic.Lib.ValueIdx

namespace Cert.LibConcatColumns

open Idealize.ShloMosaic Idealize.ShloMosaic.ValueIdx

variable {α : Type}

/-- Joined along the second axis, at a column `j` of the first piece (`k`, with the same value) the joined array reads
    the first piece. -/
theorem concat_cols_left {m n₁ n₂ N : ℕ} (u : (⟨2, ![m, n₁]⟩ : Shape).Idx → α) (v : (⟨2, ![m, n₂]⟩ : Shape).Idx → α)
    (h : Shape.Concatenates [⟨2, ![m, n₁]⟩, ⟨2, ![m, n₂]⟩] ⟨2, ![m, N]⟩ 1) (p : Fin m) (j : Fin N) (k : Fin n₁)
    (hk : k.val = j.val) :
    concatenate ⟨2, ![m, N]⟩ 1 [⟨⟨2, ![m, n₁]⟩, u⟩, ⟨⟨2, ![m, n₂]⟩, v⟩] h (ix2 p j) = u (ix2 p k) :=
  concatenate_pair_apply_left 1 u v h (ix2 p j) rfl (ix2 p k) fun b =>
    match b with
    | ⟨0, _⟩ => rfl
    | ⟨1, _⟩ => hk

/-- Joined along the second axis, at a column `j` past the first piece (`k + n₁ = j`) the joined array reads the
    second piece at column `k`. -/
theorem concat_cols_right {m n₁ n₂ N : ℕ} (u : (⟨2, ![m, n₁]⟩ : Shape).Idx → α) (v : (⟨2, ![m, n₂]⟩ : Shape).Idx → α)
    (h : Shape.Concatenates [⟨2, ![m, n₁]⟩, ⟨2, ![m, n₂]⟩] ⟨2, ![m, N]⟩ 1) (p : Fin m) (j : Fin N) (k : Fin n₂)
    (hk : k.val + n₁ = j.val) :
    concatenate ⟨2, ![m, N]⟩ 1 [⟨⟨2, ![m, n₁]⟩, u⟩, ⟨⟨2, ![m, n₂]⟩, v⟩] h (ix2 p j) = v (ix2 p k) :=
  concatenate_pair_apply_right 1 u v h (ix2 p j) rfl rfl (ix2 p k)
    (fun b hb =>
      match b, hb with
      | ⟨0, _⟩, _ => rfl
      | ⟨1, _⟩, hb => absurd rfl hb)
    hk

end Cert.LibConcatColumns
-- ==== Proof.LibHostSumLast3.lean ====
/-
  A general lemma: the host's sum over the last of three axes, read at an entry, at the exact (extended-real) values.

  `stablehlo.reduce` with an add body over axis 2 of an [a, b, c] array and an initial value gives the [a, b] array
  whose entry (i, j) is the initial value plus the sum over k of the operand at (i, j, k): the reduced index with the
  coordinate k inserted on the dropped axis is (i, j, k).
-/
import Idealize.ShloMosaic.PureOps.Ideal.Laws
import Idealize.ShloMosaic.Lib.ValueIdx

noncomputable section

open scoped BigOperators

namespace Cert.LibHostSumLast3

open Idealize.ShloMosaic Idealize.ShloMosaic.ValueIdx

/-- The host sum over the last of three axes at (i, j): the initial value plus ∑ k, x (i, j, k). -/
theorem hostSum_last3_apply {a b c : ℕ} (x : (⟨3, ![a, b, c]⟩ : Shape).Idx → EReal) (init : EReal)
    (h' : (⟨3, ![a, b, c]⟩ : Shape).ReducesTo [2] ⟨2, ![a, b]⟩) (i : Fin a) (j : Fin b) :
    Ideal.hostReduceAdd h' x init (ix2 i j) = init + ∑ k : Fin c, x (ix3 i j k) := by
  have h : (⟨3, ![a, b, c]⟩ : Shape).Reduces [2] ⟨2, ![a, b]⟩ := ⟨h'.1, Nat.zero_lt_two, h'.2⟩
  rw [Ideal.hostReduceAdd_single h' h x init (ix2 i j)]
  congr 1
  show ∑ k : Fin c, x (h.lift (ix2 i j) k) = ∑ k : Fin c, x (ix3 i j k)
  refine Finset.sum_congr rfl fun k _ => congrArg x ?_
  funext e
  apply Fin.ext
  match e with
  | ⟨0, _⟩ => rfl
  | ⟨1, _⟩ => rfl
  | ⟨2, _⟩ => rfl

end Cert.LibHostSumLast3

end
-- ==== Proof.Bridge.lean ====
/-
  The two programs' first results are one function of the argument and the pair indices.

  Fix the argument x and two index arrays i, j.  Write r(p) for i(p) with 512 added when negative, read as a signed
  integer and clamped into 0..511, and s(p) likewise for j(p).
  The kernel program gathers the Gram array at (b, r(p), s(p)): its entry there is ∑ d, x(b, r(p), d) · x(b, s(p), d).
  The reference gathers rows r(p) and s(p) of batch b, multiplies them entry by entry and sums over d from zero:
  0 + ∑ d, x(b, r(p), d) · x(b, s(p), d).
  The two gathers clamp alike (both axes of the Gram array and the row axis of the argument have extent 512), so the
  two are equal for every x, i and j: no finiteness is used, and the index arrays are never evaluated.
-/
import proofs.«142524_j52441550684608_1_alg».proof.Proof.KernelValue
import proofs.«142524_j52441550684608_1_alg».proof.Proof.RefValue
import proofs.«142524_j52441550684608_1_alg».proof.Proof.LibGatherAxes
import proofs.«142524_j52441550684608_1_alg».proof.Proof.LibConcatColumns
import proofs.«142524_j52441550684608_1_alg».proof.Proof.LibHostSumLast3
import Idealize.ShloMosaic.Lib.IdealHost
import Idealize.ShloMosaic.Lib.Pipeline.Value

noncomputable section

open scoped BigOperators

open Idealize.ShloMosaic Idealize.ShloMosaic.ValueIdx

namespace Cert.Bridge

open Cert.KernelIdeal.GramArray (gram gramAt gram_apply)

/-- A 32-bit word read as a signed row number and clamped into 0..511. -/
def row (v : BitVec 32) : Fin 512 := ⟨min v.toInt.toNat (512 - 1), by omega⟩

/-- The two programs wrap an index array by the same operations. -/
theorem wrap_eq (i : IVec Cert.KernelIdeal.S130816 32) : Cert.ReferenceIdeal.Tail.wrap i = Cert.KernelIdeal.Tail.wrap i := rfl

/-- A length-n integer vector laid out as an [n, 1] column reads, at (p, 0), the vector at p. -/
theorem column_apply (v : IVec Cert.KernelIdeal.S130816 32)
    (h : Cert.KernelIdeal.S130816.BroadcastsInDim Cert.KernelIdeal.S130816x1 ![0]) (p : Fin 130816) (u : Fin 1) :
    broadcastInDim Cert.KernelIdeal.S130816x1 ![0] h v (ix2 p u) = v (ix1 p) :=
  broadcastInDim_apply _ h v (ix2 p u) (ix1 p) fun a => by
    match a with
    | ⟨0, _⟩ => rfl

/-- The kernel program's side at (b, p). -/
theorem kernel_apply (x : FVec Ideal Cert.KernelIdeal.S8x512x128 .f32) (i j : IVec Cert.KernelIdeal.S130816 32)
    (b : Fin 8) (p : Fin 130816) :
    Cert.KernelIdeal.Tail.gatherPairs (F := Ideal) (gram x) i j (ix2 b p)
      = gramAt x b (row (Cert.KernelIdeal.Tail.wrap i (ix1 p))) (row (Cert.KernelIdeal.Tail.wrap j (ix1 p))) := by
  unfold Cert.KernelIdeal.Tail.gatherPairs
  refine (Cert.LibGatherAxes.gather_pair_apply (B := 8) (N := 512) (M := 512) (R := 130816) (by decide) (by decide) _
    (gram x) (Cert.KernelIdeal.Tail.table i j) b p).trans ?_
  have e0 : Cert.KernelIdeal.Tail.table i j (ix2 p (0 : Fin 2)) = Cert.KernelIdeal.Tail.wrap i (ix1 p) := by
    unfold Cert.KernelIdeal.Tail.table
    exact (Cert.LibConcatColumns.concat_cols_left _ _ _ p (0 : Fin 2) (0 : Fin 1) rfl).trans (column_apply _ _ p 0)
  have e1 : Cert.KernelIdeal.Tail.table i j (ix2 p (1 : Fin 2)) = Cert.KernelIdeal.Tail.wrap j (ix1 p) := by
    unfold Cert.KernelIdeal.Tail.table
    exact (Cert.LibConcatColumns.concat_cols_right _ _ _ p (1 : Fin 2) (0 : Fin 1) rfl).trans (column_apply _ _ p 0)
  show gram x (ix3 b (row (Cert.KernelIdeal.Tail.table i j (ix2 p (0 : Fin 2)))) (row (Cert.KernelIdeal.Tail.table i j (ix2 p (1 : Fin 2))))) = _
  rw [e0, e1]
  exact gram_apply x b _ _

/-- The reference's gathered rows at (b, p, d). -/
theorem rows_apply (x : FVec Ideal Cert.ReferenceIdeal.S8x512x128 .f32) (i : IVec Cert.ReferenceIdeal.S130816 32)
    (b : Fin 8) (p : Fin 130816) (d : Fin 128) :
    Cert.ReferenceIdeal.Tail.rows (F := Ideal) x i (ix3 b p d) = x (ix3 b (row (Cert.ReferenceIdeal.Tail.wrap i (ix1 p))) d) := by
  unfold Cert.ReferenceIdeal.Tail.rows
  refine (Cert.LibGatherAxes.gather_mid_apply (B := 8) (N := 512) (R := 130816) (C := 128) (by decide) _ x _ b p d).trans ?_
  show x (ix3 b (row (broadcastInDim Cert.ReferenceIdeal.S130816x1 ![0] Cert.ReferenceIdeal.Facts₀.bcast_S130816_S130816x1_0
    (Cert.ReferenceIdeal.Tail.wrap i) (ix2 p (0 : Fin 1)))) d) = _
  rw [column_apply _ _ p 0]

/-- The reference's side at (b, p). -/
theorem reference_apply (x : FVec Ideal Cert.ReferenceIdeal.S8x512x128 .f32) (i j : IVec Cert.ReferenceIdeal.S130816 32)
    (b : Fin 8) (p : Fin 130816) :
    Cert.ReferenceIdeal.Tail.dotPairs (F := Ideal) x i j (ix2 b p)
      = gramAt x b (row (Cert.ReferenceIdeal.Tail.wrap i (ix1 p))) (row (Cert.ReferenceIdeal.Tail.wrap j (ix1 p))) := by
  unfold Cert.ReferenceIdeal.Tail.dotPairs
  rw [hostReduceAdd_apply]
  refine (Cert.LibHostSumLast3.hostSum_last3_apply (a := 8) (b := 130816) (c := 128) _ _ _ b p).trans ?_
  have hz : (constant (F := Ideal) Cert.ReferenceIdeal.S_ .f32 0x00000000#32) (Shape.Idx.first Cert.ReferenceIdeal.Facts₀.h_S_) = (0 : EReal) :=
    Ideal.ofBits_zero_f32
  rw [hz, zero_add]
  unfold gramAt
  refine Finset.sum_congr rfl fun d _ => ?_
  rw [mulf_apply, rows_apply, rows_apply]

/-- THE BRIDGE: the kernel program's gather of the Gram array is the reference's sum of products of gathered rows. -/
theorem results_eq (x : FVec Ideal Cert.KernelIdeal.S8x512x128 .f32) (i j : IVec Cert.KernelIdeal.S130816 32) :
    Cert.KernelIdeal.Tail.gatherPairs (F := Ideal) (gram x) i j = Cert.ReferenceIdeal.Tail.dotPairs (F := Ideal) x i j := by
  funext q
  obtain ⟨b, p, rfl⟩ : ∃ (b : Fin 8) (p : Fin 130816), q = ix2 b p := ⟨q 0, q 1, eq_ix2 q⟩
  rw [kernel_apply, reference_apply, wrap_eq, wrap_eq]

end Cert.Bridge

end
-- ==== Proof.lean ====
/- The certificate's five claims for the pairwise edge logits.

   The kernel program computes, for each of 8 batch elements, the 512 × 512 Gram matrix of its 512 feature vectors of
   length 128 (one grid point per batch element: the block narrowed to bf16, multiplied by its own transpose into a
   zero accumulator), and then gathers from it the entries (i, j) of the pairs i < j in lexicographic order.  The
   reference gathers the feature vectors of i and of j for every pair, multiplies them entry by entry and sums over the
   features.  On the extended reals narrowing is the identity and both are the inner product
   ∑ d, x(b, i(p), d) · x(b, j(p), d) at the same wrapped and clamped indices: commutativity and associativity of
   + and · are not even needed, only that a gather of a sum of products is the sum of products of the gathers, so
   the precondition (finite inputs) is never opened.  The pair indices are built by each program from constants by the
   same operations and are carried as one unevaluated term; the second result, their table, is that term on both sides.

   The word-level kernel's and the idealized kernel's frames are the generated ones; the reference's frame is its run as a
   straight line with the results dropped; the idealization rewrote nothing, so preservation is trivial. -/
import proofs.«142524_j52441550684608_1_alg».proof.Defs
import proofs.«142524_j52441550684608_1_alg».proof.Proof.Gen.Kernel
import proofs.«142524_j52441550684608_1_alg».proof.Proof.Gen.Kernel.Skeleton
import proofs.«142524_j52441550684608_1_alg».proof.Proof.Gen.Kernel.Launch
import proofs.«142524_j52441550684608_1_alg».proof.Proof.Gen.Kernel.Points
import proofs.«142524_j52441550684608_1_alg».proof.Proof.Gen.Kernel.Frame
import proofs.«142524_j52441550684608_1_alg».proof.Proof.Gen.KernelIdeal
import proofs.«142524_j52441550684608_1_alg».proof.Proof.Gen.KernelIdeal.Skeleton
import proofs.«142524_j52441550684608_1_alg».proof.Proof.Gen.KernelIdeal.Launch
import proofs.«142524_j52441550684608_1_alg».proof.Proof.Gen.KernelIdeal.Points
import proofs.«142524_j52441550684608_1_alg».proof.Proof.Gen.KernelIdeal.Frame
import proofs.«142524_j52441550684608_1_alg».proof.Proof.Gen.ReferenceIdeal
import proofs.«142524_j52441550684608_1_alg».proof.Proof.Gen.Pre_finite_inputs
import proofs.«142524_j52441550684608_1_alg».proof.Proof.KernelValue
import proofs.«142524_j52441550684608_1_alg».proof.Proof.RefValue
import proofs.«142524_j52441550684608_1_alg».proof.Proof.Indices
import proofs.«142524_j52441550684608_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped: it terminates and its argument ends unchanged. -/
theorem frame_reference : Cert.frame_ReferenceIdeal := fun m ρ _ =>
  (θ_run Cert.ReferenceIdeal.defs _ _).mono (fun _ h c => (h c).2.2) (Cert.ReferenceIdeal.Tail.run (F := Ideal) m ρ)

/-- The contents the kernel program's region finds are the fold of its earlier operations over the launch contents. -/
theorem before_fold (m : (ℓ : Loc Cert.KernelIdeal.nD Cert.KernelIdeal.τ Cert.KernelIdeal.sig) → Buf (Elt Ideal) ℓ) (c : Dev Cert.KernelIdeal.nD) :
    Cert.KernelIdeal.Tail.before m c = StableHlo.after (Cert.Indices.kernelPairOps (F := Ideal)) (fun b => m (c, b)) :=
  (Cert.KernelIdeal.Tail.before_eq m c).trans rfl

/-- Both programs end with the first result at the inner products of the feature vectors of each pair and the second at
    the table of the pairs: the kernel program's gather of the Gram array is the reference's sum of products of gathered
    rows (`Bridge.results_eq`), at pair indices the two programs build alike (`Indices`). -/
theorem algebraic : Cert.algebraic_KernelIdeal_ReferenceIdeal := by
  intro m ρ m' ρ' _ hagree
  refine ⟨fun c => Cert.KernelIdeal.Tail.gatherPairs (F := Ideal)
      (Cert.KernelIdeal.GramArray.gram (m ((c.tc : Thread Cert.KernelIdeal.nD Cert.KernelIdeal.τ).loc Cert.KernelIdeal.main_arg0)))
      (Cert.KernelIdeal.Tail.before m c (Proc.devRef .tc Cert.KernelIdeal.main_v17))
      (Cert.KernelIdeal.Tail.before m c (Proc.devRef .tc Cert.KernelIdeal.main_v19)),
    fun c => Cert.KernelIdeal.Tail.before m c (Proc.devRef .tc Cert.KernelIdeal.main_v22),
    Cert.KernelIdeal.Tail.run m ρ, ?_⟩
  refine (θ_run Cert.ReferenceIdeal.defs _ _).mono (fun _ h c => ⟨(h c).1.trans ?_, (h c).2.1.trans ?_, (h c).2.2⟩)
    (Cert.ReferenceIdeal.Tail.run (F := Ideal) m' ρ')
  · -- the reference's index arrays are the kernel program's
    have hi : Cert.ReferenceIdeal.Tail.afterPairs (F := Ideal) m' c (Proc.devRef .tc Cert.ReferenceIdeal.main_v17)
        = Cert.KernelIdeal.Tail.before m c (Proc.devRef .tc Cert.KernelIdeal.main_v17) :=
      (congrFun (Cert.ReferenceIdeal.Tail.afterPairs_eq (F := Ideal) m' c) (Proc.devRef .tc Cert.ReferenceIdeal.main_v17)).trans
        ((Cert.Indices.rows_eq (F := Ideal) (fun b => m (c, b)) (StableHlo.launchContents m' c)).symm.trans
          (congrFun (before_fold m c) (Proc.devRef .tc Cert.KernelIdeal.main_v17)).symm)
    have hj : Cert.ReferenceIdeal.Tail.afterPairs (F := Ideal) m' c (Proc.devRef .tc Cert.ReferenceIdeal.main_v19)
        = Cert.KernelIdeal.Tail.before m c (Proc.devRef .tc Cert.KernelIdeal.main_v19) :=
      (congrFun (Cert.ReferenceIdeal.Tail.afterPairs_eq (F := Ideal) m' c) (Proc.devRef .tc Cert.ReferenceIdeal.main_v19)).trans
        ((Cert.Indices.cols_eq (F := Ideal) (fun b => m (c, b)) (StableHlo.launchContents m' c)).symm.trans
          (congrFun (before_fold m c) (Proc.devRef .tc Cert.KernelIdeal.main_v19)).symm)
    rw [hi, hj, hagree c]
    exact (Cert.Bridge.results_eq _ _ _).symm
  · exact (congrFun (Cert.ReferenceIdeal.Tail.afterPairs_eq (F := Ideal) m' c) (Proc.devRef .tc Cert.ReferenceIdeal.main_v22)).trans
      ((Cert.Indices.table_eq (F := Ideal) (fun b => m (c, b)) (StableHlo.launchContents m' c)).symm.trans
        (congrFun (before_fold m c) (Proc.devRef .tc Cert.KernelIdeal.main_v22)).symm)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
